-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x2048x32 : Shape := ⟨3, ![32, 2048, 32]⟩
abbrev S64x32 : Shape := ⟨2, ![64, 32]⟩
abbrev S64x10 : Shape := ⟨2, ![64, 10]⟩
abbrev S10 : Shape := ⟨1, ![10]⟩
abbrev S_ : Shape := ⟨0, ![]⟩

class Facts : Prop where
  bcast_S_S32x2048x32 : S_.BroadcastsInDim S32x2048x32 (![] : Fin 0 → Fin S32x2048x32.rank)
  reducesTo_S32x2048x32_S_d0_1_2 : S32x2048x32.ReducesTo [0, 1, 2] S_
  h_S_ : 0 < S_.numel
  bcast_S_S64x32 : S_.BroadcastsInDim S64x32 (![] : Fin 0 → Fin S64x32.rank)
  reducesTo_S64x32_S_d0_1 : S64x32.ReducesTo [0, 1] S_
  bcast_S_S64x10 : S_.BroadcastsInDim S64x10 (![] : Fin 0 → Fin S64x10.rank)
  reducesTo_S64x10_S_d0_1 : S64x10.ReducesTo [0, 1] S_
  bcast_S_S10 : S_.BroadcastsInDim S10 (![] : Fin 0 → Fin S10.rank)
  reducesTo_S10_S_d0 : S10.ReducesTo [0] S_

variable [Facts]

def fn_part1 {F : FTy → Type} [FloatOps F] (main_v13 : IVec S_ 1) (main_v16 : IVec S10 1) : IVec S_ 1 :=
  let main_c_5 : IVec S_ 1 := constantI S_ 1 1#1
  let main_v17 : IVec S_ 1 := (fun x v => Host.reduce IntOp.andi x v reducesTo_S10_S_d0 h_S_) main_v16 main_c_5
  let main_v18 : IVec S_ 1 := andi main_v13 main_v17
  main_v18

def fn {F : FTy → Type} [FloatOps F] (main_arg0 : FVec F S32x2048x32 .f32) (main_arg1 : FVec F S64x32 .f32) (main_arg2 : FVec F S64x10 .f32) (main_arg3 : FVec F S10 .f32) : IVec S_ 1 :=
  let main_v0 : FVec F S32x2048x32 .f32 := Host.absf main_arg0
  let main_cst : FVec F S_ .f32 := constant S_ .f32 0x7F800000#32
  let main_v1 : FVec F S32x2048x32 .f32 := broadcastInDim S32x2048x32 ![] bcast_S_S32x2048x32 main_cst
  let main_v2 : IVec S32x2048x32 1 := cmpf .olt main_v0 main_v1
  let main_c : IVec S_ 1 := constantI S_ 1 1#1
  let main_v3 : IVec S_ 1 := (fun x v => Host.reduce IntOp.andi x v reducesTo_S32x2048x32_S_d0_1_2 h_S_) main_v2 main_c
  let main_v4 : FVec F S64x32 .f32 := Host.absf main_arg1
  let main_cst_0 : FVec F S_ .f32 := constant S_ .f32 0x7F800000#32
  let main_v5 : FVec F S64x32 .f32 := broadcastInDim S64x32 ![] bcast_S_S64x32 main_cst_0
  let main_v6 : IVec S64x32 1 := cmpf .olt main_v4 main_v5
  let main_c_1 : IVec S_ 1 := constantI S_ 1 1#1
  let main_v7 : IVec S_ 1 := (fun x v => Host.reduce IntOp.andi x v reducesTo_S64x32_S_d0_1 h_S_) main_v6 main_c_1
  let main_v8 : IVec S_ 1 := andi main_v3 main_v7
  let main_v9 : FVec F S64x10 .f32 := Host.absf main_arg2
  let main_cst_2 : FVec F S_ .f32 := constant S_ .f32 0x7F800000#32
  let main_v10 : FVec F S64x10 .f32 := broadcastInDim S64x10 ![] bcast_S_S64x10 main_cst_2
  let main_v11 : IVec S64x10 1 := cmpf .olt main_v9 main_v10
  let main_c_3 : IVec S_ 1 := constantI S_ 1 1#1
  let main_v12 : IVec S_ 1 := (fun x v => Host.reduce IntOp.andi x v reducesTo_S64x10_S_d0_1 h_S_) main_v11 main_c_3
  let main_v13 : IVec S_ 1 := andi main_v8 main_v12
  let main_v14 : FVec F S10 .f32 := Host.absf main_arg3
  let main_cst_4 : FVec F S_ .f32 := constant S_ .f32 0x7F800000#32
  let main_v15 : FVec F S10 .f32 := broadcastInDim S10 ![] bcast_S_S10 main_cst_4
  let main_v16 : IVec S10 1 := cmpf .olt main_v14 main_v15
  fn_part1 (F := F) main_v13 main_v16
-- ==== Kernel.lean ====
abbrev S32x2048x32 : Shape := ⟨3, ![32, 2048, 32]⟩
abbrev S64x32 : Shape := ⟨2, ![64, 32]⟩
abbrev S64x10 : Shape := ⟨2, ![64, 10]⟩
abbrev S10 : Shape := ⟨1, ![10]⟩
abbrev S_ : Shape := ⟨0, ![]⟩
abbrev S64 : Shape := ⟨1, ![64]⟩
abbrev S32x10 : Shape := ⟨2, ![32, 10]⟩
abbrev S16x512x32 : Shape := ⟨3, ![16, 512, 32]⟩
abbrev S16x10 : Shape := ⟨2, ![16, 10]⟩
abbrev S16x64 : Shape := ⟨2, ![16, 64]⟩
abbrev S16x512 : Shape := ⟨2, ![16, 512]⟩
abbrev S8192x32 : Shape := ⟨2, ![8192, 32]⟩
abbrev S8192x64 : Shape := ⟨2, ![8192, 64]⟩
abbrev S16x512x64 : Shape := ⟨3, ![16, 512, 64]⟩
abbrev S16x512x1 : Shape := ⟨3, ![16, 512, 1]⟩
abbrev S1x1x64 : Shape := ⟨3, ![1, 1, 64]⟩
abbrev S1x10 : Shape := ⟨2, ![1, 10]⟩

abbrev nBuf : Space → Nat
  | .hbm => 12
  | .vmem => 9
  | .smem => 0
  | _ => 0

abbrev bufTy : (tb : Table) → Fin (tcTables nBuf tb) → BufTy
  | .hbm, ⟨0, _⟩ => ⟨S32x2048x32, .f32⟩
  | .hbm, ⟨1, _⟩ => ⟨S64x32, .f32⟩
  | .hbm, ⟨2, _⟩ => ⟨S64x10, .f32⟩
  | .hbm, ⟨3, _⟩ => ⟨S10, .f32⟩
  | .hbm, ⟨4, _⟩ => ⟨S_, .f32⟩
  | .hbm, ⟨5, _⟩ => ⟨S64x32, .f32⟩
  | .hbm, ⟨6, _⟩ => ⟨S64x32, .f32⟩
  | .hbm, ⟨7, _⟩ => ⟨S64x32, .bf16⟩
  | .hbm, ⟨8, _⟩ => ⟨S64x32, .f32⟩
  | .hbm, ⟨9, _⟩ => ⟨S_, .f32⟩
  | .hbm, ⟨10, _⟩ => ⟨S64, .f32⟩
  | .hbm, ⟨11, _⟩ => ⟨S32x10, .f32⟩
  | .local _ .vmem, ⟨0, _⟩ => ⟨S16x512x32, .f32⟩
  | .local _ .vmem, ⟨1, _⟩ => ⟨S16x512x32, .f32⟩
  | .local _ .vmem, ⟨2, _⟩ => ⟨S64x32, .bf16⟩
  | .local _ .vmem, ⟨3, _⟩ => ⟨S64, .f32⟩
  | .local _ .vmem, ⟨4, _⟩ => ⟨S64x10, .f32⟩
  | .local _ .vmem, ⟨5, _⟩ => ⟨S10, .f32⟩
  | .local _ .vmem, ⟨6, _⟩ => ⟨S16x10, .f32⟩
  | .local _ .vmem, ⟨7, _⟩ => ⟨S16x10, .f32⟩
  | .local _ .vmem, ⟨8, _⟩ => ⟨S16x64, .f32⟩
  | _, _ => ⟨S32x2048x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg1 : BitVec 32 := BitVec.ofNat 32 (i 1).val
  let c3_i32 : BitVec 32 := 3#32
  let v26 : BitVec 1 := Scalar.cmpi .eq arg1 c3_i32
  let v27 : BitVec 32 := Scalar.extui v26
  let c0_i32_12 : BitVec 32 := 0#32
  let v28 : BitVec 1 := Scalar.cmpi .ne v27 c0_i32_12
  v28

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S16x512x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S64x32 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S64x10 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S10 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S16x10 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  bcast_S_S64x32 : S_.BroadcastsInDim S64x32 (![] : Fin 0 → Fin S64x32.rank)
  bitsLt_bf16_f32 : FTy.bits .bf16 < FTy.bits .f32
  reducesTo_S64x32_S64_d1 : S64x32.ReducesTo [1] S64
  h_S_ : 0 < S_.numel
  inb_S16x64_S16x64_0_0 : ∀ a, (![0, 0] : Fin 2 → Nat) a + S16x64.size a ≤ S16x64.size a
  h_S16x64 : 0 < S16x64.numel
  shapeCasts_S16x64_S16x64 : S16x64.ShapeCasts S16x64
  inb_S16x512x32_S16x512x32_0_0_0 : ∀ a, (![0, 0, 0] : Fin 3 → Nat) a + S16x512x32.size a ≤ S16x512x32.size a
  h_S16x512x32 : 0 < S16x512x32.numel
  reduces_S16x512x32_S16x512 : S16x512x32.Reduces [2] S16x512
  shapeCasts_S16x512x32_S8192x32 : S16x512x32.ShapeCasts S8192x32
  inb_S64x32_S64x32_0_0 : ∀ a, (![0, 0] : Fin 2 → Nat) a + S64x32.size a ≤ S64x32.size a
  h_S64x32 : 0 < S64x32.numel
  shapeCasts_S64x32_S64x32 : S64x32.ShapeCasts S64x32
  shapeCasts_S8192x64_S16x512x64 : S8192x64.ShapeCasts S16x512x64
  inb_S64_S64_0 : ∀ a, (![0] : Fin 1 → Nat) a + S64.size a ≤ S64.size a
  h_S64 : 0 < S64.numel
  shapeCasts_S64_S64 : S64.ShapeCasts S64
  shapeCasts_S16x512_S16x512x1 : S16x512.ShapeCasts S16x512x1
  broadcasts_S16x512x1_S16x512x64 : S16x512x1.Broadcasts S16x512x64
  shapeCasts_S64_S1x1x64 : S64.ShapeCasts S1x1x64
  broadcasts_S1x1x64_S16x512x64 : S1x1x64.Broadcasts S16x512x64
  reduces_S16x512x64_S16x64 : S16x512x64.Reduces [1] S16x64
  inb_S64x10_S64x10_0_0 : ∀ a, (![0, 0] : Fin 2 → Nat) a + S64x10.size a ≤ S64x10.size a
  h_S64x10 : 0 < S64x10.numel
  inb_S10_S10_0 : ∀ a, (![0] : Fin 1 → Nat) a + S10.size a ≤ S10.size a
  h_S10 : 0 < S10.numel
  shapeCasts_S10_S1x10 : S10.ShapeCasts S1x10
  broadcasts_S1x10_S16x10 : S1x10.Broadcasts S16x10
  inb_S16x10_S16x10_0_0 : ∀ a, (![0, 0] : Fin 2 → Nat) a + S16x10.size a ≤ S16x10.size a
  h_S16x10 : 0 < S16x10.numel
  dot_S8192x32_S64x32_S8192x64_1_1_0_0_n_n_wf : DotDims.WF S8192x32 S64x32 S8192x64 [1] [1] [0] [0] [] []
  dot_S16x64_S64x10_S16x10_1_0_0_1_n_n_wf : DotDims.WF S16x64 S64x10 S16x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x512x32.size a ≤ S32x2048x32.size a
  hwx0_0 : ∀ i : grid0.Coords, EltTy.bits .f32 = 32 ∨ (Rect.block (s := S32x2048x32) S16x512x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x32.size a ≤ S64x32.size a
  hwx0_1 : ∀ i : grid0.Coords, EltTy.bits .bf16 = 32 ∨ (Rect.block (s := S64x32) S64x32.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x10.size a ≤ S64x10.size a
  hwx0_3 : ∀ i : grid0.Coords, EltTy.bits .f32 = 32 ∨ (Rect.block (s := S64x10) S64x10.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S10.size a ≤ S10.size a
  hwx0_4 : ∀ i : grid0.Coords, EltTy.bits .f32 = 32 ∨ (Rect.block (s := S10) S10.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S16x10.size a ≤ S32x10.size a
  hwx0_5 : ∀ i : grid0.Coords, EltTy.bits .f32 = 32 ∨ (Rect.block (s := S32x10) S16x10.size (cc0_transform_5 i) (hinb0_5 i)).WholeWords (EltTy.packing .f32)

variable [Facts₀]

def dot_S8192x32_S64x32_S8192x64_1_1_0_0_n_n : DotDims S8192x32 S64x32 S8192x64 where
  lhsContracting := [1]
  rhsContracting := [1]
  lhsNonContracting := [0]
  rhsNonContracting := [0]
  lhsBatch := []
  rhsBatch := []
  wf := dot_S8192x32_S64x32_S8192x64_1_1_0_0_n_n_wf
def dot_S16x64_S64x10_S16x10_1_0_0_1_n_n : DotDims S16x64 S64x10 S16x10 where
  lhsContracting := [1]
  rhsContracting := [0]
  lhsNonContracting := [0]
  rhsNonContracting := [1]
  lhsBatch := []
  rhsBatch := []
  wf := dot_S16x64_S64x10_S16x10_1_0_0_1_n_n_wf

abbrev win0_0 : Pipeline.Window sig grid0 :=
  Pipeline.Window.ofSpec (Memref.whole main_arg0) S16x512x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S64x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S64x10.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S10.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S16x10.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S32x2048x32 : Shape := ⟨3, ![32, 2048, 32]⟩
abbrev S64x32 : Shape := ⟨2, ![64, 32]⟩
abbrev S64x10 : Shape := ⟨2, ![64, 10]⟩
abbrev S10 : Shape := ⟨1, ![10]⟩
abbrev S32x2048x1x32 : Shape := ⟨4, ![32, 2048, 1, 32]⟩
abbrev S1x1x64x32 : Shape := ⟨4, ![1, 1, 64, 32]⟩
abbrev S32x2048x64x32 : Shape := ⟨4, ![32, 2048, 64, 32]⟩
abbrev S_ : Shape := ⟨0, ![]⟩
abbrev S32x2048x64 : Shape := ⟨3, ![32, 2048, 64]⟩
abbrev S32x64 : Shape := ⟨2, ![32, 64]⟩
abbrev S32x10 : Shape := ⟨2, ![32, 10]⟩
abbrev S1x10 : Shape := ⟨2, ![1, 10]⟩

abbrev nBuf : Space → Nat
  | .hbm => 28
  | .vmem => 0
  | .smem => 0
  | _ => 0

abbrev bufTy : (tb : Table) → Fin (tcTables nBuf tb) → BufTy
  | .hbm, ⟨0, _⟩ => ⟨S32x2048x32, .f32⟩
  | .hbm, ⟨1, _⟩ => ⟨S64x32, .f32⟩
  | .hbm, ⟨2, _⟩ => ⟨S64x10, .f32⟩
  | .hbm, ⟨3, _⟩ => ⟨S10, .f32⟩
  | .hbm, ⟨4, _⟩ => ⟨S32x2048x1x32, .f32⟩
  | .hbm, ⟨5, _⟩ => ⟨S1x1x64x32, .f32⟩
  | .hbm, ⟨6, _⟩ => ⟨S32x2048x64x32, .f32⟩
  | .hbm, ⟨7, _⟩ => ⟨S32x2048x64x32, .f32⟩
  | .hbm, ⟨8, _⟩ => ⟨S32x2048x64x32, .f32⟩
  | .hbm, ⟨9, _⟩ => ⟨S32x2048x64x32, .f32⟩
  | .hbm, ⟨10, _⟩ => ⟨S32x2048x64x32, .f32⟩
  | .hbm, ⟨11, _⟩ => ⟨S_, .f32⟩
  | .hbm, ⟨12, _⟩ => ⟨S32x2048x64, .f32⟩
  | .hbm, ⟨13, _⟩ => ⟨S32x2048x64, .f32⟩
  | .hbm, ⟨14, _⟩ => ⟨S_, .f32⟩
  | .hbm, ⟨15, _⟩ => ⟨S32x64, .f32⟩
  | .hbm, ⟨16, _⟩ => ⟨S32x10, .f32⟩
  | .hbm, ⟨17, _⟩ => ⟨S1x10, .f32⟩
  | .hbm, ⟨18, _⟩ => ⟨S32x10, .f32⟩
  | .hbm, ⟨19, _⟩ => ⟨S32x10, .f32⟩
  | .hbm, ⟨20, _⟩ => ⟨S32x10, .f32⟩
  | .hbm, ⟨21, _⟩ => ⟨S32x10, .f32⟩
  | .hbm, ⟨22, _⟩ => ⟨S_, .f32⟩
  | .hbm, ⟨23, _⟩ => ⟨S32x10, .f32⟩
  | .hbm, ⟨24, _⟩ => ⟨S32x10, .f32⟩
  | .hbm, ⟨25, _⟩ => ⟨S_, .f32⟩
  | .hbm, ⟨26, _⟩ => ⟨S32x10, .f32⟩
  | .hbm, ⟨27, _⟩ => ⟨S32x10, .f32⟩
  | _, _ => ⟨S32x2048x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_1 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]

class Facts₀ : Prop where
  bcast_S32x2048x32_S32x2048x1x32_0_1_3 : S32x2048x32.BroadcastsInDim S32x2048x1x32 (![0, 1, 3] : Fin 3 → Fin S32x2048x1x32.rank)
  bcast_S64x32_S1x1x64x32_2_3 : S64x32.BroadcastsInDim S1x1x64x32 (![2, 3] : Fin 2 → Fin S1x1x64x32.rank)
  bcast_S32x2048x1x32_S32x2048x64x32_0_1_2_3 : S32x2048x1x32.BroadcastsInDim S32x2048x64x32 (![0, 1, 2, 3] : Fin 4 → Fin S32x2048x64x32.rank)
  bcast_S1x1x64x32_S32x2048x64x32_0_1_2_3 : S1x1x64x32.BroadcastsInDim S32x2048x64x32 (![0, 1, 2, 3] : Fin 4 → Fin S32x2048x64x32.rank)
  reducesTo_S32x2048x64x32_S32x2048x64_d3 : S32x2048x64x32.ReducesTo [3] S32x2048x64
  h_S_ : 0 < S_.numel
  reducesTo_S32x2048x64_S32x64_d1 : S32x2048x64.ReducesTo [1] S32x64
  bcast_S10_S1x10_1 : S10.BroadcastsInDim S1x10 (![1] : Fin 1 → Fin S1x10.rank)
  bcast_S1x10_S32x10_0_1 : S1x10.BroadcastsInDim S32x10 (![0, 1] : Fin 2 → Fin S32x10.rank)
  bcast_S_S32x10 : S_.BroadcastsInDim S32x10 (![] : Fin 0 → Fin S32x10.rank)
  dot_S32x64_S64x10_S32x10_1_0_0_1_n_n_wf : DotDims.WF S32x64 S64x10 S32x10 [1] [0] [0] [1] [] []

variable [Facts₀]

def dot_S32x64_S64x10_S32x10_1_0_0_1_n_n : DotDims S32x64 S64x10 S32x10 where
  lhsContracting := [1]
  rhsContracting := [0]
  lhsNonContracting := [0]
  rhsNonContracting := [1]
  lhsBatch := []
  rhsBatch := []
  wf := dot_S32x64_S64x10_S32x10_1_0_0_1_n_n_wf

class Facts : Prop extends Facts₀ where

variable [Facts]
-- ==== Proof.Spec.lean ====
/-
  The mathematics shared by the two programs, free of either program's text.

  Each program computes, for a batch row b and an output column o,
      sigmoid ( sum_j  m(b, j) * cw(j, o)  +  cb(o) ),
  where m(b, j) is the least Euclidean distance between a window x(b, w, ·) and the shapelet s(j, ·), over
  the 2048 windows w.  One side takes the square root of every squared distance and then the least; the other
  expands the squared distance as  sum x*x + sum x*(-2 s) + sum s*s,  takes the least over four tiles of 512
  windows, clamps it at zero and takes one square root.  The two agree because
    * over the reals  sum_l (x_l - s_l)^2 = sum x^2 - 2 sum x s + sum s^2  (finiteness is used here only);
    * a squared distance is nonnegative, so the clamp changes nothing;
    * the square root is monotone on the extended reals and fixes the top element, so it commutes with a
      finite minimum taken from the top element;
    * a minimum over 2048 windows is the minimum of the minima over the four tiles.
-/
import Idealize.ShloMosaic.PureOps.Ideal
import Idealize.ShloMosaic.PureOps.Ideal.Laws

noncomputable section

namespace Cert.Spec

open Idealize.ShloMosaic

/-! ## Finite minima from the top element -/

/-- The least value of `f` over `Fin n`, folded from the top element. -/
def minOver {n : ℕ} (f : Fin n → EReal) : EReal := (Finset.univ : Finset (Fin n)).fold min ⊤ f

/-- Its universal property: a lower bound of the minimum is a lower bound of every entry. -/
theorem le_minOver {n : ℕ} (f : Fin n → EReal) (c : EReal) : c ≤ minOver f ↔ ∀ k, c ≤ f k := by
  unfold minOver
  rw [Finset.le_fold_min]
  exact ⟨fun h k => h.2 k (Finset.mem_univ k), fun h => ⟨le_top, fun k _ => h k⟩⟩

theorem minOver_congr {n : ℕ} {f g : Fin n → EReal} (h : ∀ k, f k = g k) : minOver f = minOver g :=
  congrArg minOver (funext h)

/-- Window `p` of tile `k`, among the 2048 windows. -/
def wIdx (k : Fin 4) (p : Fin 512) : Fin 2048 :=
  ⟨512 * k.val + p.val, by have := k.isLt; have := p.isLt; omega⟩

/-- The least value over the 2048 windows is the running minimum, from the top element, of the least values over
    the four tiles of 512 windows. -/
theorem minOver_four (f : Fin 2048 → EReal) :
    min (min (min (min ⊤ (minOver fun p => f (wIdx 0 p))) (minOver fun p => f (wIdx 1 p)))
      (minOver fun p => f (wIdx 2 p))) (minOver fun p => f (wIdx 3 p)) = minOver f := by
  refine eq_of_forall_le_iff fun c => ?_
  simp only [le_min_iff, le_minOver, le_top, true_and]
  constructor
  · rintro ⟨⟨⟨h0, h1⟩, h2⟩, h3⟩ w
    have hw := w.isLt
    obtain ⟨k, p, rfl⟩ : ∃ (k : Fin 4) (p : Fin 512), w = wIdx k p :=
      ⟨⟨w.val / 512, by omega⟩, ⟨w.val % 512, Nat.mod_lt _ (by norm_num)⟩, Fin.ext (by simp only [wIdx]; omega)⟩
    match k with
    | ⟨0, _⟩ => exact h0 p
    | ⟨1, _⟩ => exact h1 p
    | ⟨2, _⟩ => exact h2 p
    | ⟨3, _⟩ => exact h3 p
  · intro h
    exact ⟨⟨⟨fun p => h _, fun p => h _⟩, fun p => h _⟩, fun p => h _⟩

/-! ## The square root after a clamp at zero -/

/-- The square root is monotone on the extended reals (below zero it is the bottom element). -/
theorem sqrt_mono : Monotone Ideal.sqrt := by
  intro a b hab
  induction a using EReal.rec with
  | bot => exact bot_le
  | top => rw [top_le_iff.mp hab]
  | coe a =>
    induction b using EReal.rec with
    | bot => exact absurd hab (by simp)
    | top => exact le_top
    | coe b =>
      have hab' : a ≤ b := EReal.coe_le_coe_iff.mp hab
      rw [Ideal.sqrt_coe, Ideal.sqrt_coe]
      by_cases ha : a < 0
      · rw [if_pos ha]; exact bot_le
      · rw [if_neg ha, if_neg (by linarith)]
        exact EReal.coe_le_coe_iff.mpr (Real.sqrt_le_sqrt hab')

/-- Clamp at zero, then the square root. -/
def rootClamp (a : EReal) : EReal := Ideal.sqrt (max a 0)

theorem rootClamp_mono : Monotone rootClamp := fun _ _ h => sqrt_mono (max_le_max h le_rfl)

theorem rootClamp_top : rootClamp ⊤ = ⊤ := by
  unfold rootClamp
  rw [max_eq_left (le_top : (0 : EReal) ≤ ⊤)]
  rfl

theorem rootClamp_min (a b : EReal) : rootClamp (min a b) = min (rootClamp a) (rootClamp b) :=
  rootClamp_mono.map_min

/-- It commutes with a finite minimum from the top element. -/
theorem rootClamp_minOver {n : ℕ} (f : Fin n → EReal) : rootClamp (minOver f) = minOver fun k => rootClamp (f k) := by
  unfold minOver
  have h := Finset.fold_hom (op := min) (op' := min) (m := rootClamp) (s := (Finset.univ : Finset (Fin n))) (b := ⊤) (f := f)
    (fun a b => rootClamp_min a b)
  rw [rootClamp_top] at h
  exact h.symm

/-- On a nonnegative real the clamp changes nothing. -/
theorem rootClamp_coe {r : ℝ} (h : 0 ≤ r) : rootClamp (r : EReal) = Ideal.sqrt (r : EReal) := by
  unfold rootClamp
  rw [max_eq_left (by exact_mod_cast h)]

/-! ## The squared distance, in its two spellings, over the reals -/

/-- A finite sum of reals, each read as an extended real, is the real sum read as one. -/
theorem coe_sum {n : ℕ} (f : Fin n → ℝ) : (∑ l, ((f l : ℝ) : EReal)) = ((∑ l, f l : ℝ) : EReal) := by
  have h : ∀ s : Finset (Fin n), (∑ l ∈ s, ((f l : ℝ) : EReal)) = ((∑ l ∈ s, f l : ℝ) : EReal) := by
    intro s
    refine Finset.induction_on s (by simp) ?_
    intro a s ha ih
    rw [Finset.sum_insert ha, Finset.sum_insert ha, ih, EReal.coe_add]
  exact h _

/-- The expanded form of the squared distance is the sum of the squared differences. -/
theorem expanded_eq (x s : Fin 32 → ℝ) :
    (∑ l, ((x l : ℝ) : EReal) * (x l : ℝ)) + (∑ l, ((x l : ℝ) : EReal) * (((-2 : ℝ) : EReal) * (s l : ℝ)))
        + (0 + ∑ l, ((s l : ℝ) : EReal) * (s l : ℝ))
      = ((∑ l, (x l - s l) ^ 2 : ℝ) : EReal) := by
  simp only [← EReal.coe_mul]
  rw [coe_sum, coe_sum, coe_sum, zero_add, ← EReal.coe_add, ← EReal.coe_add]
  congr 1
  rw [← Finset.sum_add_distrib, ← Finset.sum_add_distrib]
  exact Finset.sum_congr rfl fun l _ => by ring

/-- The absolute difference times itself is the squared difference. -/
theorem absdiff_sq (a b : ℝ) :
    max ((a : EReal) - (b : ℝ)) (-((a : EReal) - (b : ℝ))) * max ((a : EReal) - (b : ℝ)) (-((a : EReal) - (b : ℝ)))
      = (((a - b) ^ 2 : ℝ) : EReal) := by
  rw [← EReal.coe_sub, ← EReal.coe_neg, ← EReal.coe_strictMono.monotone.map_max, ← EReal.coe_mul]
  congr 1
  rw [← abs_eq_max_neg, abs_mul_abs_self, sq]

/-! ## The two spellings of the whole computation -/

/-- The distance between a window and a shapelet, the direct way: the root of the sum of the absolute differences
    times themselves. -/
def dist (x s : Fin 32 → EReal) : EReal :=
  Ideal.sqrt (∑ l, max (x l - s l) (-(x l - s l)) * max (x l - s l) (-(x l - s l)))

/-- The least distance of a shapelet to the 2048 windows of one batch row. -/
def least (x : Fin 2048 → Fin 32 → EReal) (s : Fin 32 → EReal) : EReal := minOver fun w => dist (x w) s

/-- THE RESULT, the direct way: the logistic function of the least distances' product with the classifier, plus
    its bias. -/
def out (x : Fin 32 → Fin 2048 → Fin 32 → EReal) (s : Fin 64 → Fin 32 → EReal) (cw : Fin 64 → Fin 10 → EReal)
    (cb : Fin 10 → EReal) (b : Fin 32) (o : Fin 10) : EReal :=
  Ideal.logistic ((∑ j : Fin 64, least (x b) (s j) * cw j o) + cb o)

/-- The squared distance, expanded: `sn` stands for the shapelet scaled by −2 and `s2` for its squared norm. -/
def expanded (x sn : Fin 32 → EReal) (s2 : EReal) : EReal := (∑ l, x l * x l) + (∑ l, x l * sn l) + s2

/-- The least expanded squared distance over the 512 windows of tile `k`. -/
def tileLeast (x : Fin 2048 → Fin 32 → EReal) (sn : Fin 32 → EReal) (s2 : EReal) (k : Fin 4) : EReal :=
  minOver fun p => expanded (x (wIdx k p)) sn s2

/-- The running minimum after the four tiles, from the top element. -/
def accLeast (x : Fin 2048 → Fin 32 → EReal) (sn : Fin 32 → EReal) (s2 : EReal) : EReal :=
  min (min (min (min ⊤ (tileLeast x sn s2 0)) (tileLeast x sn s2 1)) (tileLeast x sn s2 2)) (tileLeast x sn s2 3)

/-- THE RESULT, the tiled way: the running minimum clamped at zero, one square root, then the same classifier. -/
def outK (x : Fin 32 → Fin 2048 → Fin 32 → EReal) (sn : Fin 64 → Fin 32 → EReal) (s2 : Fin 64 → EReal)
    (cw : Fin 64 → Fin 10 → EReal) (cb : Fin 10 → EReal) (b : Fin 32) (o : Fin 10) : EReal :=
  Ideal.logistic ((∑ j : Fin 64, Ideal.sqrt (max (accLeast (x b) (sn j) (s2 j)) 0) * cw j o) + cb o)

/-- One window against one shapelet: the clamped root of the expanded form is the distance. -/
theorem entry_eq (x s : Fin 32 → ℝ) :
    rootClamp (expanded (fun l => ((x l : ℝ) : EReal)) (fun l => ((-2 : ℝ) : EReal) * (s l : ℝ))
        (0 + ∑ l, ((s l : ℝ) : EReal) * (s l : ℝ)))
      = dist (fun l => ((x l : ℝ) : EReal)) (fun l => ((s l : ℝ) : EReal)) := by
  unfold expanded dist
  rw [expanded_eq, rootClamp_coe (Finset.sum_nonneg fun l _ => sq_nonneg _)]
  congr 1
  simp only [absdiff_sq]
  rw [coe_sum]

/-- One batch row against one shapelet, all windows finite: the clamped root of the running minimum over the four
    tiles is the least distance. -/
theorem accLeast_eq (x : Fin 2048 → Fin 32 → ℝ) (s : Fin 32 → ℝ) :
    rootClamp (accLeast (fun w l => ((x w l : ℝ) : EReal)) (fun l => ((-2 : ℝ) : EReal) * (s l : ℝ))
        (0 + ∑ l, ((s l : ℝ) : EReal) * (s l : ℝ)))
      = least (fun w l => ((x w l : ℝ) : EReal)) (fun l => ((s l : ℝ) : EReal)) := by
  unfold accLeast tileLeast least
  rw [rootClamp_min, rootClamp_min, rootClamp_min, rootClamp_min, rootClamp_top,
    rootClamp_minOver, rootClamp_minOver, rootClamp_minOver, rootClamp_minOver]
  simp only [entry_eq]
  exact minOver_four fun w => dist (fun l => ((x w l : ℝ) : EReal)) (fun l => ((s l : ℝ) : EReal))

/-- THE BRIDGE. With every window entry and every shapelet entry finite, the tiled way over the shapelets scaled by
    −2 and their squared norms is the direct way. -/
theorem outK_eq_out (x : Fin 32 → Fin 2048 → Fin 32 → EReal) (s : Fin 64 → Fin 32 → EReal)
    (cw : Fin 64 → Fin 10 → EReal) (cb : Fin 10 → EReal)
    (hx : ∀ b w l, ∃ r : ℝ, x b w l = (r : EReal)) (hs : ∀ j l, ∃ r : ℝ, s j l = (r : EReal)) (b : Fin 32) (o : Fin 10) :
    outK x (fun j l => ((-2 : ℝ) : EReal) * s j l) (fun j => 0 + ∑ l, s j l * s j l) cw cb b o = out x s cw cb b o := by
  choose xr hxr using hx
  choose sr hsr using hs
  obtain rfl : x = fun b w l => ((xr b w l : ℝ) : EReal) := funext fun b => funext fun w => funext fun l => hxr b w l
  obtain rfl : s = fun j l => ((sr j l : ℝ) : EReal) := funext fun j => funext fun l => hsr j l
  unfold outK out
  refine congrArg (fun t => Ideal.logistic (t + cb o)) (Finset.sum_congr rfl fun j _ => ?_)
  exact congrArg (· * cw j o) (accLeast_eq (xr b) (sr j))

end Cert.Spec

end
-- ==== Proof.LibMinFold.lean ====
/-
  A minimum-reduction over ONE axis, read at a result index as the fold of `min` over that axis's coordinates.

  On the extended reals `min` is commutative and associative, so the order in which a reduction visits the axis does
  not matter: a kernel's vector reduction and the host's reduce are both the fold of `min`, from the initial value,
  over the source read at the result index with the reduced coordinate inserted.
-/
import Idealize.ShloMosaic.PureOps.Ideal
import Idealize.ShloMosaic.PureOps.Ideal.Laws
import Idealize.ShloMosaic.PureOps.Reduce

noncomputable section

namespace Idealize.ShloMosaic.LibMinFold

open Idealize.ShloMosaic

variable {φ : FTy}

/-- A kernel's `vector.multi_reduction <minimumf>` over one axis, at the ideal values: the fold of `min`, from the
    accumulator's value, over the reduced axis's coordinates. -/
theorem multiReduction_minimumf_single {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (Ideal.ofBits φ acc) (src ∘ h.lift j) := by
  rw [multiReduction_minimumf_eq_fold]
  exact h.fold_filter_drop_single _ _ src j

/-- The host's one-operand reduce with a `minimum` body over one axis, at the ideal values: the same fold, from the
    initial value's one element. -/
theorem hostReduce_minimumf_single {s t u : Shape} {a : Fin s.rank} (x : FVec Ideal s φ) (init : FVec Ideal u φ)
    (h' : s.ReducesTo [a] t) (h : s.Reduces [a] t) (hu : 0 < u.numel) (j : t.Idx) :
    Host.reduce (FloatOps.minimumf (F := Ideal) (φ := φ)) x init h' hu j
      = (Finset.univ : Finset (Fin (s.size a))).fold min (init (Shape.Idx.first hu)) (x ∘ h.lift j) :=
  Host.reduce_eq_fold_single _ x init h' h hu j

/-- The f32 word of plus infinity is the top element. -/
theorem ofBits_inf_f32 : Ideal.ofBits .f32 0x7F800000#32 = ⊤ := by
  simp [Ideal.ofBits, Ideal.ieee]

end Idealize.ShloMosaic.LibMinFold

end
-- ==== Proof.Finite.lean ====
/-
  What the precondition gives: every entry of the windows and of the shapelets is a real number.

  The precondition is the conjunction, over the four arguments, of "every entry's absolute value is below plus
  infinity".  On the extended reals an element whose absolute value max(x, −x) is below the top element is neither
  infinity, so it is a real.  Only the first two conjuncts are needed: the expansion of a squared distance is an
  identity of real arithmetic in the windows' and the shapelets' entries, and nothing else in the computation needs
  finiteness.
-/
import proofs.«163978_j66073776882276_2_alg».proof.Pre_finite_inputs
import proofs.«163978_j66073776882276_2_alg».proof.Proof.Gen.Pre_finite_inputs
import proofs.«163978_j66073776882276_2_alg».proof.Proof.LibMinFold
import Idealize.ShloMosaic.Lib.ReduceAll
import Idealize.ShloMosaic.Lib.Affine
import Idealize.ShloMosaic.Lib.ValueIdx
import Idealize.ShloMosaic.PureOps.Ideal.Laws

noncomputable section

namespace Cert.Pre_finite_inputs.Finite

open Cert.Pre_finite_inputs Idealize.ShloMosaic

variable [Facts]

instance : Subsingleton S_.Idx := ⟨fun a b => funext fun d => d.elim0⟩

/-- An extended real whose absolute value is below the top element is a real. -/
theorem real_of_abs_lt (x : EReal) (h : Ideal.cmp .olt (max x (-x)) (Ideal.ofBits .f32 0x7F800000#32) = 1#1) :
    ∃ r : ℝ, x = (r : EReal) := by
  rw [LibMinFold.ofBits_inf_f32] at h
  have h2 : BitVec.ofBool (decide (max x (-x) < ⊤)) = 1#1 := h
  have h' : max x (-x) < ⊤ := by
    by_contra hne
    rw [decide_eq_false hne] at h2
    exact absurd h2 (by decide)
  induction x using EReal.rec with
  | bot => simp at h'
  | top => simp at h'
  | coe r => exact ⟨r, rfl⟩

/-- Under the precondition every window entry and every shapelet entry is a real. -/
theorem entries_real (x0 : FVec Ideal S32x2048x32 .f32) (x1 : FVec Ideal S64x32 .f32) (x2 : FVec Ideal S64x10 .f32)
    (x3 : FVec Ideal S10 .f32) (h : fn (F := Ideal) x0 x1 x2 x3 = fun _ => 1#1) :
    (∀ i, ∃ r : ℝ, x0 i = (r : EReal)) ∧ (∀ i, ∃ r : ℝ, x1 i = (r : EReal)) := by
  have h0 := congrFun h ValueIdx.ix0
  dsimp only [fn, fn_part1] at h0
  obtain ⟨h123, _⟩ := IntOp.andi_eq_one.1 h0
  obtain ⟨h12, _⟩ := IntOp.andi_eq_one.1 h123
  obtain ⟨hx, hs⟩ := IntOp.andi_eq_one.1 h12
  exact ⟨fun i => real_of_abs_lt _ (Host.reduce_andi_all _ _ _ _ _ hx i),
    fun i => real_of_abs_lt _ (Host.reduce_andi_all _ _ _ _ _ hs i)⟩

end Cert.Pre_finite_inputs.Finite

end
-- ==== Proof.RefValue.lean ====
/-
  The reference's result, index by index, is the direct form of the computation.

  Its stages, read one at a time: the absolute difference of a window entry and a shapelet entry, times itself, summed
  over the 32 positions from zero; the square root; the minimum over the 2048 windows from the top element; the
  product with the classifier's weights, summed over the 64 shapelets; plus the bias; and the logistic function,
  which the host spells as one over one plus the exponential of the negation.
-/
import proofs.«163978_j66073776882276_2_alg».proof.Proof.Gen.ReferenceIdeal.Read
import proofs.«163978_j66073776882276_2_alg».proof.Proof.Spec
import proofs.«163978_j66073776882276_2_alg».proof.Proof.LibMinFold
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx
open Cert.Spec

/-- The f32 word of one is the number one. -/
theorem ofBits_one_f32 : Ideal.ofBits .f32 0x3F800000#32 = 1 := by
  simp [Ideal.ofBits, Ideal.ieee]
  rw [← EReal.coe_mul, ← EReal.coe_one]
  norm_num

/-- Position l of window (b, w), through the three broadcasts. -/
theorem e_x (b : Fin 32) (w : Fin 2048) (j : Fin 64) (l : Fin 32) :
    idx_main_v0 (idx_main_v2 (idx_main_v7 (ix3 b w j) l)) = ix3 b w l := funext fun a => Fin.ext (by
  match a with
  | ⟨0, _⟩ => rfl
  | ⟨1, _⟩ => rfl
  | ⟨2, _⟩ => rfl)

/-- Position l of shapelet j, through the three broadcasts. -/
theorem e_s (b : Fin 32) (w : Fin 2048) (j : Fin 64) (l : Fin 32) :
    idx_main_v1 (idx_main_v3 (idx_main_v7 (ix3 b w j) l)) = ix2 j l := funext fun a => Fin.ext (by
  match a with
  | ⟨0, _⟩ => rfl
  | ⟨1, _⟩ => rfl)

/-- The distance stage at (b, w, j). -/
theorem v8_apply (x0 : (⟨S32x2048x32, .f32⟩ : BufTy).Contents (Elt Ideal)) (x1 : (⟨S64x32, .f32⟩ : BufTy).Contents (Elt Ideal))
    (b : Fin 32) (w : Fin 2048) (j : Fin 64) :
    val_main_v8 (F := Ideal) x0 x1 (ix3 b w j) = Spec.dist (fun l => x0 (ix3 b w l)) (fun l => x1 (ix2 j l)) := by
  rw [val_main_v8_apply, val_main_v7_apply]
  simp only [val_main_v6_apply, val_main_v5_apply, val_main_v4_apply, val_main_v2_apply, val_main_v3_apply,
    val_main_v0_apply, val_main_v1_apply, val_main_cst_apply, e_x, e_s]
  unfold Spec.dist
  simp only [Ideal.hostUnary_sqrt_def, Ideal.ofBits_def, Ideal.ofBits_zero_f32, zero_add, Ideal.hostAbsf_def,
    Ideal.absf_def, Ideal.subf_def, Ideal.mulf_def]

/-- The least-distance stage at (b, j). -/
theorem v9_apply (x0 : (⟨S32x2048x32, .f32⟩ : BufTy).Contents (Elt Ideal)) (x1 : (⟨S64x32, .f32⟩ : BufTy).Contents (Elt Ideal))
    (b : Fin 32) (j : Fin 64) :
    val_main_v9 (F := Ideal) x0 x1 (ix2 b j) = least (fun w l => x0 (ix3 b w l)) (fun l => x1 (ix2 j l)) := by
  have hR : S32x2048x64.Reduces [1] S32x64 := by decide
  unfold val_main_v9 least minOver
  refine (LibMinFold.hostReduce_minimumf_single (val_main_v8 (F := Ideal) x0 x1) (val_main_cst_0 (F := Ideal))
    reducesTo_S32x2048x64_S32x64_d1 hR h_S_ (ix2 b j)).trans ?_
  rw [val_main_cst_0_apply]
  show (Finset.univ : Finset (Fin 2048)).fold min (Ideal.ofBits .f32 0x7F800000#32) _ = _
  rw [LibMinFold.ofBits_inf_f32]
  refine congrArg (fun f => (Finset.univ : Finset (Fin 2048)).fold min ⊤ f) (funext fun w => ?_)
  have e : hR.lift (ix2 b j) w = ix3 b w j := funext fun a => Fin.ext (by
    match a with
    | ⟨0, _⟩ => rfl
    | ⟨1, _⟩ => rfl
    | ⟨2, _⟩ => rfl)
  show val_main_v8 (F := Ideal) x0 x1 (hR.lift (ix2 b j) w) = _
  rw [e]
  exact v8_apply x0 x1 b w j

/-- THE REFERENCE IS THE DIRECT FORM. -/
theorem ref_eq (x0 : (⟨S32x2048x32, .f32⟩ : BufTy).Contents (Elt Ideal)) (x1 : (⟨S64x32, .f32⟩ : BufTy).Contents (Elt Ideal))
    (x2 : (⟨S64x10, .f32⟩ : BufTy).Contents (Elt Ideal)) (x3 : (⟨S10, .f32⟩ : BufTy).Contents (Elt Ideal))
    (b : Fin 32) (o : Fin 10) :
    val_main_v19 (F := Ideal) x0 x1 x2 x3 (ix2 b o)
      = out (fun b w l => x0 (ix3 b w l)) (fun j l => x1 (ix2 j l)) (fun j o => x2 (ix2 j o)) (fun o => x3 (ix1 o)) b o := by
  have el : ∀ k : Fin 64, lidx_main_v10 (ix2 b o) k = ix2 b k := fun k => funext fun a => Fin.ext (by
    match a with
    | ⟨0, _⟩ => rfl
    | ⟨1, _⟩ => rfl)
  have er : ∀ k : Fin 64, ridx_main_v10 (ix2 b o) k = ix2 k o := fun k => funext fun a => Fin.ext (by
    match a with
    | ⟨0, _⟩ => rfl
    | ⟨1, _⟩ => rfl)
  have eb : idx_main_v11 (idx_main_v12 (ix2 b o)) = ix1 o := funext fun a => Fin.ext (by
    match a with
    | ⟨0, _⟩ => rfl)
  rw [val_main_v19_apply, val_main_v18_apply, val_main_cst_2_apply, val_main_v17_apply, val_main_v16_apply,
    val_main_cst_1_apply, val_main_v15_apply, val_main_v14_apply, val_main_v13_apply, val_main_v12_apply,
    val_main_v11_apply, val_main_v10_apply]
  unfold out Ideal.logistic
  simp only [el, er, eb, v9_apply, Ideal.ofBits_def, ofBits_one_f32, Ideal.hostDivf_def, Ideal.addf_def,
    Ideal.hostUnary_exp_def, Ideal.hostNegf_def, Ideal.negf_def]

end Cert.ReferenceIdeal.RefValue

end
-- ==== Proof.Pieces.lean ====
/-
  What each control case of the body leaves behind, as pure functions of what it loaded.

  The body keeps, in a scratch block of 16 rows by 64 shapelets, the running minimum of the expanded squared
  distances seen so far in the current batch tile.  At the first window tile of a sweep it first sets the scratch to
  the top element and reads that back; at every tile it replaces the scratch by the minimum of what it held and the
  tile's own minimum; at the last tile it also writes the output block, computed from the scratch it has just
  updated.  Each statement below reads the stores the run found back as one value.
-/
import proofs.«163978_j66073776882276_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz1 : (![0] : Fin 1 → Nat) = fun _ => 0 := funext fun a => by fin_cases a; rfl
theorem hz2 : (![0, 0] : Fin 2 → Nat) = fun _ => 0 := funext fun a => by fin_cases a <;> rfl
theorem hz3 : (![0, 0, 0] : Fin 3 → Nat) = fun _ => 0 := funext fun a => by fin_cases a <;> rfl

/-- A tile strictly inside a sweep: the scratch ends at the minimum of what it held and this tile's minimum (one
    covering store, its loads reading whole buffers). -/
theorem sout_B (c : Dev nD) (i : grid0.Coords) (a2 : Memref sig .tc .vmem S16x512x32 .f32) (h2 : a2.IsWhole)
    (a3 : Memref sig .tc .vmem S64x32 .bf16) (h3 : a3.IsWhole) (a4 : Memref sig .tc .vmem S64 .f32) (h4 : a4.IsWhole)
    (a5 : Memref sig .tc .vmem S64x10 .f32) (h5 : a5.IsWhole) (a6 : Memref sig .tc .vmem S10 .f32) (h6 : a6.IsWhole)
    (a7 : Memref sig .tc .vmem S16x10 .f32) (h7 : a7.IsWhole) (a8 : Memref sig .tc .vmem S16x64 .f32) (h8 : a8.IsWhole)
    (hc0 : ¬cond0_0 i) (hc1 : ¬cond0_1 i)
    (x0 : Vec F S16x512x32 .f32) (x1 : Vec F S64x32 .bf16) (x2 : Vec F S64 .f32) (x3 : Vec F S64x10 .f32) (x4 : Vec F S10 .f32)
    (xs0 : Vec F S16x64 .f32) :
    sout0_B_0 c i a2 h2 a3 h3 a4 h4 a5 h5 a6 h6 a7 h7 a8 h8 hc0 hc1 x0 x1 x2 x3 x4 xs0 = k0_pay2 x0 x1 x2 xs0 := by
  unfold sout0_B_0
  rw [View.read_writes_eq_canon _ _ _ (scover0_B_0 c i a2 h2 a3 h3 a4 h4 a5 h5 a6 h6 a7 h7 a8 h8 hc0 hc1 x0 x1 x2 x3 x4 xs0)]
  unfold kernelRun0_B
  dsimp only
  rw [View.canon_unit_zero hz2]
  simp only [View.readAt_eq_ld, h2.read_unread, h3.read_unread, h4.read_unread, h8.read_unread,
    View.ld_unit_zero (S := S16x512x32) hz3, View.ld_unit_zero (S := S64x32) hz2, View.ld_unit_zero (S := S64) hz1,
    View.ld_unit_zero (S := S16x64) hz2]

/-- The last tile of a sweep: the scratch ends the same way. -/
theorem sout_C (c : Dev nD) (i : grid0.Coords) (a2 : Memref sig .tc .vmem S16x512x32 .f32) (h2 : a2.IsWhole)
    (a3 : Memref sig .tc .vmem S64x32 .bf16) (h3 : a3.IsWhole) (a4 : Memref sig .tc .vmem S64 .f32) (h4 : a4.IsWhole)
    (a5 : Memref sig .tc .vmem S64x10 .f32) (h5 : a5.IsWhole) (a6 : Memref sig .tc .vmem S10 .f32) (h6 : a6.IsWhole)
    (a7 : Memref sig .tc .vmem S16x10 .f32) (h7 : a7.IsWhole) (a8 : Memref sig .tc .vmem S16x64 .f32) (h8 : a8.IsWhole)
    (hc0 : ¬cond0_0 i) (hc1 : cond0_1 i)
    (x0 : Vec F S16x512x32 .f32) (x1 : Vec F S64x32 .bf16) (x2 : Vec F S64 .f32) (x3 : Vec F S64x10 .f32) (x4 : Vec F S10 .f32)
    (xs0 : Vec F S16x64 .f32) :
    sout0_C_0 c i a2 h2 a3 h3 a4 h4 a5 h5 a6 h6 a7 h7 a8 h8 hc0 hc1 x0 x1 x2 x3 x4 xs0 = k0_pay2 x0 x1 x2 xs0 := by
  unfold sout0_C_0
  rw [View.read_writes_eq_canon _ _ _ (scover0_C_0 c i a2 h2 a3 h3 a4 h4 a5 h5 a6 h6 a7 h7 a8 h8 hc0 hc1 x0 x1 x2 x3 x4 xs0)]
  unfold kernelRun0_C
  dsimp only
  sl_unfold_words
  rw [View.canon_unit_zero hz2]
  simp only [View.readAt_eq_ld, h2.read_unread, h3.read_unread, h4.read_unread, h8.read_unread,
    View.ld_unit_zero (S := S16x512x32) hz3, View.ld_unit_zero (S := S64x32) hz2, View.ld_unit_zero (S := S64) hz1,
    View.ld_unit_zero (S := S16x64) hz2]

/-- The last tile of a sweep: the output block is the finishing computation of the scratch as just updated, the
    classifier's weights and its bias. -/
theorem out_C (c : Dev nD) (i : grid0.Coords) (a2 : Memref sig .tc .vmem S16x512x32 .f32) (h2 : a2.IsWhole)
    (a3 : Memref sig .tc .vmem S64x32 .bf16) (h3 : a3.IsWhole) (a4 : Memref sig .tc .vmem S64 .f32) (h4 : a4.IsWhole)
    (a5 : Memref sig .tc .vmem S64x10 .f32) (h5 : a5.IsWhole) (a6 : Memref sig .tc .vmem S10 .f32) (h6 : a6.IsWhole)
    (a7 : Memref sig .tc .vmem S16x10 .f32) (h7 : a7.IsWhole) (a8 : Memref sig .tc .vmem S16x64 .f32) (h8 : a8.IsWhole)
    (hc0 : ¬cond0_0 i) (hc1 : cond0_1 i)
    (x0 : Vec F S16x512x32 .f32) (x1 : Vec F S64x32 .bf16) (x2 : Vec F S64 .f32) (x3 : Vec F S64x10 .f32) (x4 : Vec F S10 .f32)
    (xs0 : Vec F S16x64 .f32) :
    out0_C_5 c i a2 h2 a3 h3 a4 h4 a5 h5 a6 h6 a7 h7 a8 h8 hc0 hc1 x0 x1 x2 x3 x4 xs0 = k0_pay3 (k0_pay2 x0 x1 x2 xs0) x3 x4 := by
  unfold out0_C_5
  rw [View.read_writes_eq_canon _ _ _ (cover0_C_5 c i a2 h2 a3 h3 a4 h4 a5 h5 a6 h6 a7 h7 a8 h8 hc0 hc1 x0 x1 x2 x3 x4 xs0)]
  unfold kernelRun0_C
  dsimp only
  sl_unfold_words
  rw [View.canon_unit_zero hz2, View.readCov_unit_zero (S := S16x64) _ hz2]
  simp only [View.readAt_eq_ld, h2.read_unread, h3.read_unread, h4.read_unread, h5.read_unread, h6.read_unread, h8.read_unread,
    View.ld_unit_zero (S := S16x512x32) hz3, View.ld_unit_zero (S := S64x32) hz2, View.ld_unit_zero (S := S64) hz1,
    View.ld_unit_zero (S := S16x64) hz2, View.ld_unit_zero (S := S64x10) hz2, View.ld_unit_zero (S := S10) hz1]

/-- The first tile of a sweep: the scratch is first set to the top element everywhere and read back, so it ends at
    the minimum of the top element and this tile's minimum. -/
theorem sout_A (c : Dev nD) (i : grid0.Coords) (a2 : Memref sig .tc .vmem S16x512x32 .f32) (h2 : a2.IsWhole)
    (a3 : Memref sig .tc .vmem S64x32 .bf16) (h3 : a3.IsWhole) (a4 : Memref sig .tc .vmem S64 .f32) (h4 : a4.IsWhole)
    (a5 : Memref sig .tc .vmem S64x10 .f32) (h5 : a5.IsWhole) (a6 : Memref sig .tc .vmem S10 .f32) (h6 : a6.IsWhole)
    (a7 : Memref sig .tc .vmem S16x10 .f32) (h7 : a7.IsWhole) (a8 : Memref sig .tc .vmem S16x64 .f32) (h8 : a8.IsWhole)
    (hc0 : cond0_0 i) (hc1 : ¬cond0_1 i)
    (x0 : Vec F S16x512x32 .f32) (x1 : Vec F S64x32 .bf16) (x2 : Vec F S64 .f32) (x3 : Vec F S64x10 .f32) (x4 : Vec F S10 .f32) :
    sout0_A_0 c i a2 h2 a3 h3 a4 h4 a5 h5 a6 h6 a7 h7 a8 h8 hc0 hc1 x0 x1 x2 x3 x4 = k0_pay2 x0 x1 x2 (k0_pay1 (F := F)) := by
  unfold sout0_A_0
  rw [View.read_writes_eq_canon _ _ _ (scover0_A_0 c i a2 h2 a3 h3 a4 h4 a5 h5 a6 h6 a7 h7 a8 h8 hc0 hc1 x0 x1 x2 x3 x4)]
  unfold kernelRun0_A
  dsimp only
  sl_unfold_words
  rw [View.canon_cons_unit_zero (S := S16x64) hz2, View.readCov_unit_zero (S := S16x64) _ hz2]
  simp only [View.readAt_eq_ld, h2.read_unread, h3.read_unread, h4.read_unread,
    View.ld_unit_zero (S := S16x512x32) hz3, View.ld_unit_zero (S := S64x32) hz2, View.ld_unit_zero (S := S64) hz1]

end Cert.KernelIdeal.Pieces
end
-- ==== Proof.LibDotSum.lean ====
/-
  A contraction over ONE axis, re-indexed by that axis's coordinate.

  A matrix product's sum ranges over the contraction shape's index set; when one axis is contracted that set
  is in bijection with `Fin K`, and the sum becomes the familiar `∑ k : Fin K, L k * R k` once each operand
  is known at the operand indices.
-/
import Idealize.ShloMosaic.PureOps.Ideal
import Idealize.ShloMosaic.PureOps.Ideal.Laws
import Idealize.ShloMosaic.Lib.ValueIdx

noncomputable section

open scoped BigOperators

namespace Idealize.ShloMosaic.LibDotSum

open Idealize.ShloMosaic Idealize.ShloMosaic.ValueIdx

/-- The contraction sum of a one-axis dot as a sum over the contracted coordinate `k : Fin K`, given each
    operand's value at the operand index of `k`. -/
theorem sum_single {sl sr so : Shape} (D : DotDims sl sr so) (K : Nat) (hr : D.contr.rank = 1)
    (hs : D.contr.size ⟨0, by omega⟩ = K) (lhs : sl.Idx → EReal) (rhs : sr.Idx → EReal) (j : so.Idx)
    (L R : Fin K → EReal)
    (hl : ∀ k : Fin K, lhs (D.lhsIdx j ((contrEquiv1 D K hr hs).symm k)) = L k)
    (hrr : ∀ k : Fin K, rhs (D.rhsIdx j ((contrEquiv1 D K hr hs).symm k)) = R k) :
    ∑ q : D.contr.Idx, lhs (D.lhsIdx j q) * rhs (D.rhsIdx j q) = ∑ k : Fin K, L k * R k := by
  rw [← Equiv.sum_comp (contrEquiv1 D K hr hs).symm]
  exact Finset.sum_congr rfl fun k _ => by rw [hl k, hrr k]

/-- The left operand's coordinate on the single contracted axis is the contracted coordinate. -/
theorem lhs_contr_val {sl sr so : Shape} (D : DotDims sl sr so) (K : Nat) (hr : D.contr.rank = 1)
    (hs : D.contr.size ⟨0, by omega⟩ = K) {cl : Fin sl.rank} (hc : D.lhsContracting = [cl]) (j : so.Idx) (k : Fin K) :
    (D.lhsIdx j ((contrEquiv1 D K hr hs).symm k) cl).val = k.val :=
  (D.lhsIdx_val_of_single hc j _).trans (contrEquiv1_symm_val D K hr hs k)

/-- The right operand's coordinate on the single contracted axis is the contracted coordinate. -/
theorem rhs_contr_val {sl sr so : Shape} (D : DotDims sl sr so) (K : Nat) (hr : D.contr.rank = 1)
    (hs : D.contr.size ⟨0, by omega⟩ = K) {cr : Fin sr.rank} (hc : D.rhsContracting = [cr]) (j : so.Idx) (k : Fin K) :
    (D.rhsIdx j ((contrEquiv1 D K hr hs).symm k) cr).val = k.val :=
  (D.rhsIdx_val_of_single hc j _).trans (contrEquiv1_symm_val D K hr hs k)

end Idealize.ShloMosaic.LibDotSum

end
-- ==== Proof.LibMatmulNT.lean ====
/-
  A matrix product of an `[M, K]` array by an `[N, K]` array, contracting the LAST axis of both, read at `(p, q)`:
  the sum over `k` of the left operand at `(p, k)` times the right operand at `(q, k)` — the inner product of row `p`
  of the left operand and row `q` of the right.
-/
import Idealize.ShloMosaic.PureOps.Ideal
import Idealize.ShloMosaic.PureOps.Ideal.Laws
import Idealize.ShloMosaic.Lib.ValueIdx
import proofs.«163978_j66073776882276_2_alg».proof.Proof.LibDotSum

noncomputable section

open scoped BigOperators

namespace Idealize.ShloMosaic.LibMatmulNT

open Idealize.ShloMosaic Idealize.ShloMosaic.ValueIdx

/-- The contraction sum of an `[M, K] × [N, K]` product at `(p, q)`, over the contracted coordinate.  The two facts
    about the free axes (`hl0`, `hr0`: the left operand's row is the result's row, the right operand's row the result's
    column) are read off a program's literal dimension numbers. -/
theorem contr_sum {M K N : Nat} (D : DotDims ⟨2, ![M, K]⟩ ⟨2, ![N, K]⟩ ⟨2, ![M, N]⟩) (hr : D.contr.rank = 1)
    (hs : D.contr.size ⟨0, by omega⟩ = K) (hlc : D.lhsContracting = [1]) (hrc : D.rhsContracting = [1])
    (hl0 : ∀ j q, (D.lhsIdx j q 0).val = (j 0).val) (hr0 : ∀ j q, (D.rhsIdx j q 0).val = (j 1).val)
    (x : (⟨2, ![M, K]⟩ : Shape).Idx → EReal) (y : (⟨2, ![N, K]⟩ : Shape).Idx → EReal) (p : Fin M) (q : Fin N) :
    ∑ c : D.contr.Idx, x (D.lhsIdx (ix2 p q) c) * y (D.rhsIdx (ix2 p q) c) = ∑ k : Fin K, x (ix2 p k) * y (ix2 q k) := by
  refine LibDotSum.sum_single D K hr hs x y (ix2 p q) (fun k => x (ix2 p k)) (fun k => y (ix2 q k)) (fun k => ?_) (fun k => ?_)
  · refine congrArg x (funext fun a => Fin.ext ?_)
    match a with
    | ⟨0, _⟩ => exact hl0 _ _
    | ⟨1, _⟩ => exact LibDotSum.lhs_contr_val D K hr hs hlc _ k
  · refine congrArg y (funext fun a => Fin.ext ?_)
    match a with
    | ⟨0, _⟩ => exact hr0 _ _
    | ⟨1, _⟩ => exact LibDotSum.rhs_contr_val D K hr hs hrc _ k

/-- A kernel's matrix product into a zero accumulator, at `(p, q)`. -/
theorem matmul_zero_apply {M K N : Nat} {φ₁ φ₂ : FTy} (D : DotDims ⟨2, ![M, K]⟩ ⟨2, ![N, K]⟩ ⟨2, ![M, N]⟩) (hr : D.contr.rank = 1)
    (hs : D.contr.size ⟨0, by omega⟩ = K) (hlc : D.lhsContracting = [1]) (hrc : D.rhsContracting = [1])
    (hl0 : ∀ j q, (D.lhsIdx j q 0).val = (j 0).val) (hr0 : ∀ j q, (D.rhsIdx j q 0).val = (j 1).val)
    (prec : Option ContractPrecision) (x : FVec Ideal ⟨2, ![M, K]⟩ φ₁) (y : FVec Ideal ⟨2, ![N, K]⟩ φ₂) (p : Fin M) (q : Fin N) :
    FloatOps.matmul D prec x y (constant ⟨2, ![M, N]⟩ .f32 0x00000000#32) (ix2 p q) = ∑ k : Fin K, x (ix2 p k) * y (ix2 q k) :=
  (Ideal.matmul_constant_zero_apply D prec x y (ix2 p q)).trans (contr_sum D hr hs hlc hrc hl0 hr0 x y p q)

/-- The host's `dot_general` of the same shape, at `(p, q)`. -/
theorem dotGeneral_apply {M K N : Nat} {φ₁ φ₂ : FTy} (D : DotDims ⟨2, ![M, K]⟩ ⟨2, ![N, K]⟩ ⟨2, ![M, N]⟩) (hr : D.contr.rank = 1)
    (hs : D.contr.size ⟨0, by omega⟩ = K) (hlc : D.lhsContracting = [1]) (hrc : D.rhsContracting = [1])
    (hl0 : ∀ j q, (D.lhsIdx j q 0).val = (j 0).val) (hr0 : ∀ j q, (D.rhsIdx j q 0).val = (j 1).val)
    (prec : Option ContractPrecision) (x : FVec Ideal ⟨2, ![M, K]⟩ φ₁) (y : FVec Ideal ⟨2, ![N, K]⟩ φ₂) (p : Fin M) (q : Fin N) :
    Host.dotGeneral D prec x y (ix2 p q) = ∑ k : Fin K, x (ix2 p k) * y (ix2 q k) := by
  simp only [Host.dotGeneral]
  rw [Ideal.dotGeneral_apply]
  exact contr_sum D hr hs hlc hrc hl0 hr0 x y p q

end Idealize.ShloMosaic.LibMatmulNT

end
-- ==== Proof.LibMatmul2.lean ====
/-
  A matrix product of a `[M, K]` array by a `[K, N]` array, contracted over the one shared axis, read at `(p, q)`:
  the sum over `k` of the left operand at `(p, k)` times the right operand at `(k, q)`.
-/
import Idealize.ShloMosaic.PureOps.Ideal
import Idealize.ShloMosaic.PureOps.Ideal.Laws
import Idealize.ShloMosaic.Lib.ValueIdx
import proofs.«163978_j66073776882276_2_alg».proof.Proof.LibDotSum

noncomputable section

open scoped BigOperators

namespace Idealize.ShloMosaic.LibMatmul2

open Idealize.ShloMosaic Idealize.ShloMosaic.ValueIdx

/-- The contraction sum of a `[M, K] × [K, N]` product at `(p, q)`, over the contracted coordinate.  The two facts
    about the free axes (`hl0`, `hr1`: the left operand's row is the result's row, the right operand's column the result's
    column) are read off a program's literal dimension numbers. -/
theorem contr_sum {M K N : Nat} (D : DotDims ⟨2, ![M, K]⟩ ⟨2, ![K, N]⟩ ⟨2, ![M, N]⟩) (hr : D.contr.rank = 1)
    (hs : D.contr.size ⟨0, by omega⟩ = K) (hlc : D.lhsContracting = [1]) (hrc : D.rhsContracting = [0])
    (hl0 : ∀ j q, (D.lhsIdx j q 0).val = (j 0).val) (hr1 : ∀ j q, (D.rhsIdx j q 1).val = (j 1).val)
    (x : (⟨2, ![M, K]⟩ : Shape).Idx → EReal) (y : (⟨2, ![K, N]⟩ : Shape).Idx → EReal) (p : Fin M) (q : Fin N) :
    ∑ c : D.contr.Idx, x (D.lhsIdx (ix2 p q) c) * y (D.rhsIdx (ix2 p q) c) = ∑ k : Fin K, x (ix2 p k) * y (ix2 k q) := by
  refine LibDotSum.sum_single D K hr hs x y (ix2 p q) (fun k => x (ix2 p k)) (fun k => y (ix2 k q)) (fun k => ?_) (fun k => ?_)
  · refine congrArg x (funext fun a => Fin.ext ?_)
    match a with
    | ⟨0, _⟩ => exact hl0 _ _
    | ⟨1, _⟩ => exact LibDotSum.lhs_contr_val D K hr hs hlc _ k
  · refine congrArg y (funext fun a => Fin.ext ?_)
    match a with
    | ⟨0, _⟩ => exact LibDotSum.rhs_contr_val D K hr hs hrc _ k
    | ⟨1, _⟩ => exact hr1 _ _

/-- A kernel's matrix product into a zero accumulator, at `(p, q)`. -/
theorem matmul_zero_apply {M K N : Nat} {φ₁ φ₂ : FTy} (D : DotDims ⟨2, ![M, K]⟩ ⟨2, ![K, N]⟩ ⟨2, ![M, N]⟩) (hr : D.contr.rank = 1)
    (hs : D.contr.size ⟨0, by omega⟩ = K) (hlc : D.lhsContracting = [1]) (hrc : D.rhsContracting = [0])
    (hl0 : ∀ j q, (D.lhsIdx j q 0).val = (j 0).val) (hr1 : ∀ j q, (D.rhsIdx j q 1).val = (j 1).val)
    (prec : Option ContractPrecision) (x : FVec Ideal ⟨2, ![M, K]⟩ φ₁) (y : FVec Ideal ⟨2, ![K, N]⟩ φ₂) (p : Fin M) (q : Fin N) :
    FloatOps.matmul D prec x y (constant ⟨2, ![M, N]⟩ .f32 0x00000000#32) (ix2 p q) = ∑ k : Fin K, x (ix2 p k) * y (ix2 k q) :=
  (Ideal.matmul_constant_zero_apply D prec x y (ix2 p q)).trans (contr_sum D hr hs hlc hrc hl0 hr1 x y p q)

/-- The host's `dot_general` of the same shape, at `(p, q)`. -/
theorem dotGeneral_apply {M K N : Nat} {φ₁ φ₂ : FTy} (D : DotDims ⟨2, ![M, K]⟩ ⟨2, ![K, N]⟩ ⟨2, ![M, N]⟩) (hr : D.contr.rank = 1)
    (hs : D.contr.size ⟨0, by omega⟩ = K) (hlc : D.lhsContracting = [1]) (hrc : D.rhsContracting = [0])
    (hl0 : ∀ j q, (D.lhsIdx j q 0).val = (j 0).val) (hr1 : ∀ j q, (D.rhsIdx j q 1).val = (j 1).val)
    (prec : Option ContractPrecision) (x : FVec Ideal ⟨2, ![M, K]⟩ φ₁) (y : FVec Ideal ⟨2, ![K, N]⟩ φ₂) (p : Fin M) (q : Fin N) :
    Host.dotGeneral D prec x y (ix2 p q) = ∑ k : Fin K, x (ix2 p k) * y (ix2 k q) := by
  simp only [Host.dotGeneral]
  rw [Ideal.dotGeneral_apply]
  exact contr_sum D hr hs hlc hrc hl0 hr1 x y p q

end Idealize.ShloMosaic.LibMatmul2

end
-- ==== Proof.Payload.lean ====
/-
  The body's two computations read at an index, at the ideal values.

  The tile computation: entry (r, j) of the updated scratch is the minimum of what the scratch held there and, over
  the tile's 512 windows p, of the expanded squared distance
      sum_l x(r,p,l)^2  +  sum_l x(r,p,l) * sn(j,l)  +  s2(j),
  where sn is the block of shapelets scaled by −2 and s2 the block of squared norms.  The row sums of squares, the
  matrix product of the flattened [8192, 32] windows with the [64, 32] block, the re-laying of both to [16, 512, 64]
  and the two broadcasts are each read at explicit coordinates; none of them rounds.

  The finishing computation: entry (r, o) of the output block is the logistic function of
      sum_j sqrt(max(acc(r,j), 0)) * cw(j,o)  +  cb(o).
-/
import proofs.«163978_j66073776882276_2_alg».proof.Proof.Gen.KernelIdeal.Skeleton
import proofs.«163978_j66073776882276_2_alg».proof.Proof.Spec
import proofs.«163978_j66073776882276_2_alg».proof.Proof.LibMatmulNT
import proofs.«163978_j66073776882276_2_alg».proof.Proof.LibMatmul2
import proofs.«163978_j66073776882276_2_alg».proof.Proof.LibMinFold
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Payload

open Cert.KernelIdeal Cert.KernelIdeal.Gen Idealize.ShloMosaic Idealize.ShloMosaic.ValueIdx Cert.Spec

/-- Row r, window p of a [16, 512, ·] block, in the flattened [8192, ·] layout. -/
def flat (r : Fin 16) (p : Fin 512) : Fin 8192 := ⟨r.val * 512 + p.val, by have := r.isLt; have := p.isLt; omega⟩

/-! ## The layout operations of the tile computation, at coordinates -/

/-- [16, 512, 32] flattened to [8192, 32]. -/
theorem flatten_apply {α : Type} (v : S16x512x32.Idx → α) (h : S16x512x32.ShapeCasts S8192x32) (r : Fin 16) (p : Fin 512)
    (l : Fin 32) : shapeCast S8192x32 v h (ix2 (flat r p) l) = v (ix3 r p l) :=
  shapeCast_apply v h (ix2 (flat r p) l) (ix3 r p l) (by
    rw [Shape.rowMajor_val_three, Shape.rowMajor_val_two]; rfl)

/-- [8192, 64] re-laid as [16, 512, 64]. -/
theorem unflatten_apply {α : Type} (v : S8192x64.Idx → α) (h : S8192x64.ShapeCasts S16x512x64) (r : Fin 16) (p : Fin 512)
    (j : Fin 64) : shapeCast S16x512x64 v h (ix3 r p j) = v (ix2 (flat r p) j) :=
  shapeCast_apply v h (ix3 r p j) (ix2 (flat r p) j) (by
    rw [Shape.rowMajor_val_three, Shape.rowMajor_val_two]; rfl)

/-- [16, 512] with a trailing unit axis added. -/
theorem keep_apply {α : Type} (v : S16x512.Idx → α) (h : S16x512.ShapeCasts S16x512x1) (r : Fin 16) (p : Fin 512)
    (u : Fin 1) : shapeCast S16x512x1 v h (ix3 r p u) = v (ix2 r p) :=
  shapeCast_apply v h (ix3 r p u) (ix2 r p) (by
    have hu := u.isLt
    rw [Shape.rowMajor_val_three, Shape.rowMajor_val_two]
    show r.val * 512 + p.val = (r.val * 512 + p.val) * 1 + u.val
    omega)

/-- That column broadcast along the shapelet axis. -/
theorem bcast_col_apply {α : Type} (v : S16x512x1.Idx → α) (h : S16x512x1.Broadcasts S16x512x64) (r : Fin 16)
    (p : Fin 512) (j : Fin 64) : broadcastTo S16x512x64 v h (ix3 r p j) = v (ix3 r p (0 : Fin 1)) :=
  broadcastTo_apply v h (ix3 r p j) (ix3 r p (0 : Fin 1)) (fun a => by
    match a with
    | ⟨0, _⟩ => show r.val = if (16 : Nat) = 1 then 0 else r.val; rw [if_neg (by decide)]
    | ⟨1, _⟩ => show p.val = if (512 : Nat) = 1 then 0 else p.val; rw [if_neg (by decide)]
    | ⟨2, _⟩ => show 0 = if (1 : Nat) = 1 then 0 else j.val; rw [if_pos rfl])

/-- [64] with two leading unit axes added. -/
theorem row3_apply {α : Type} (v : S64.Idx → α) (h : S64.ShapeCasts S1x1x64) (u u' : Fin 1) (j : Fin 64) :
    shapeCast S1x1x64 v h (ix3 u u' j) = v (ix1 j) :=
  shapeCast_apply v h (ix3 u u' j) (ix1 j) (by
    have hu := u.isLt; have hu' := u'.isLt
    rw [Shape.rowMajor_val_three, Shape.rowMajor_val_one]
    show j.val = (u.val * 1 + u'.val) * 64 + j.val
    omega)

/-- That row broadcast along rows and windows. -/
theorem bcast_row_apply {α : Type} (v : S1x1x64.Idx → α) (h : S1x1x64.Broadcasts S16x512x64) (r : Fin 16)
    (p : Fin 512) (j : Fin 64) : broadcastTo S16x512x64 v h (ix3 r p j) = v (ix3 (0 : Fin 1) (0 : Fin 1) j) :=
  broadcastTo_apply v h (ix3 r p j) (ix3 (0 : Fin 1) (0 : Fin 1) j) (fun a => by
    match a with
    | ⟨0, _⟩ => show 0 = if (1 : Nat) = 1 then 0 else r.val; rw [if_pos rfl]
    | ⟨1, _⟩ => show 0 = if (1 : Nat) = 1 then 0 else p.val; rw [if_pos rfl]
    | ⟨2, _⟩ => show j.val = if (64 : Nat) = 1 then 0 else j.val; rw [if_neg (by decide)])

/-! ## The reductions and the product of the tile computation -/

/-- The row sums of squares. -/
theorem sumsq_apply (x0 : FVec Ideal S16x512x32 .f32) (hφ : FKind.Formats .f32)
    (hacc : (0x00000000#32 : BitVec 32) = FKind.add.neutral .f32 hφ) (r : Fin 16) (p : Fin 512) :
    multiReduction .add [2] S16x512 (mulf x0 x0) 0x00000000#32 reduces_S16x512x32_S16x512 hφ hacc (ix2 r p)
      = ∑ l : Fin 32, x0 (ix3 r p l) * x0 (ix3 r p l) := by
  refine (Ideal.multiReduction_add_single (mulf x0 x0) 0x00000000#32 reduces_S16x512x32_S16x512 hφ hacc (ix2 r p)).trans ?_
  refine Finset.sum_congr rfl fun l _ => ?_
  have e : reduces_S16x512x32_S16x512.lift (ix2 r p) l = ix3 r p l := funext fun a => Fin.ext (by
    match a with
    | ⟨0, _⟩ => rfl
    | ⟨1, _⟩ => rfl
    | ⟨2, _⟩ => rfl)
  rw [e]
  rfl

/-- The free axes of the [8192, 32] × [64, 32] product. -/
theorem dotA_l0 (i : S8192x64.Idx) (q : dot_S8192x32_S64x32_S8192x64_1_1_0_0_n_n.contr.Idx) :
    (dot_S8192x32_S64x32_S8192x64_1_1_0_0_n_n.lhsIdx i q 0).val = (i 0).val := by
  unfold DotDims.lhsIdx
  rw [dif_neg (show ¬(0 : Fin S8192x32.rank) ∈ dot_S8192x32_S64x32_S8192x64_1_1_0_0_n_n.lhsBatch by decide),
    dif_pos (show (0 : Fin S8192x32.rank) ∈ dot_S8192x32_S64x32_S8192x64_1_1_0_0_n_n.lhsNonContracting by decide)]
  rfl
theorem dotA_r0 (i : S8192x64.Idx) (q : dot_S8192x32_S64x32_S8192x64_1_1_0_0_n_n.contr.Idx) :
    (dot_S8192x32_S64x32_S8192x64_1_1_0_0_n_n.rhsIdx i q 0).val = (i 1).val := by
  unfold DotDims.rhsIdx
  rw [dif_neg (show ¬(0 : Fin S64x32.rank) ∈ dot_S8192x32_S64x32_S8192x64_1_1_0_0_n_n.rhsBatch by decide),
    dif_pos (show (0 : Fin S64x32.rank) ∈ dot_S8192x32_S64x32_S8192x64_1_1_0_0_n_n.rhsNonContracting by decide)]
  rfl

/-- The free axes of the [16, 64] × [64, 10] product. -/
theorem dotB_l0 (i : S16x10.Idx) (q : dot_S16x64_S64x10_S16x10_1_0_0_1_n_n.contr.Idx) :
    (dot_S16x64_S64x10_S16x10_1_0_0_1_n_n.lhsIdx i q 0).val = (i 0).val := by
  unfold DotDims.lhsIdx
  rw [dif_neg (show ¬(0 : Fin S16x64.rank) ∈ dot_S16x64_S64x10_S16x10_1_0_0_1_n_n.lhsBatch by decide),
    dif_pos (show (0 : Fin S16x64.rank) ∈ dot_S16x64_S64x10_S16x10_1_0_0_1_n_n.lhsNonContracting by decide)]
  rfl
theorem dotB_r1 (i : S16x10.Idx) (q : dot_S16x64_S64x10_S16x10_1_0_0_1_n_n.contr.Idx) :
    (dot_S16x64_S64x10_S16x10_1_0_0_1_n_n.rhsIdx i q 1).val = (i 1).val := by
  unfold DotDims.rhsIdx
  rw [dif_neg (show ¬(1 : Fin S64x10.rank) ∈ dot_S16x64_S64x10_S16x10_1_0_0_1_n_n.rhsBatch by decide),
    dif_pos (show (1 : Fin S64x10.rank) ∈ dot_S16x64_S64x10_S16x10_1_0_0_1_n_n.rhsNonContracting by decide)]
  rfl

/-! ## The tile computation -/

/-- The tile's expanded squared distances, as the body spells them. -/
def dvec (x0 : FVec Ideal S16x512x32 .f32) (x1 : FVec Ideal S64x32 .bf16) (x2 : FVec Ideal S64 .f32) :
    FVec Ideal S16x512x64 .f32 :=
  addf (addf
      (broadcastTo S16x512x64 (shapeCast S16x512x1
        (multiReduction .add [2] S16x512 (mulf x0 x0) 0x00000000#32 reduces_S16x512x32_S16x512 (.inl rfl) rfl)
        shapeCasts_S16x512_S16x512x1) broadcasts_S16x512x1_S16x512x64)
      (shapeCast S16x512x64 (matmul dot_S8192x32_S64x32_S8192x64_1_1_0_0_n_n none
        (truncf .bf16 (shapeCast S8192x32 x0 shapeCasts_S16x512x32_S8192x32) bitsLt_bf16_f32)
        (shapeCast S64x32 x1 shapeCasts_S64x32_S64x32) (constant S8192x64 .f32 0x00000000#32))
        shapeCasts_S8192x64_S16x512x64))
    (broadcastTo S16x512x64 (shapeCast S1x1x64 (shapeCast S64 x2 shapeCasts_S64_S64) shapeCasts_S64_S1x1x64)
      broadcasts_S1x1x64_S16x512x64)

/-- Entry (r, p, j): the expanded squared distance of window (r, p) to shapelet j. -/
theorem dvec_apply (x0 : FVec Ideal S16x512x32 .f32) (x1 : FVec Ideal S64x32 .bf16) (x2 : FVec Ideal S64 .f32)
    (r : Fin 16) (p : Fin 512) (j : Fin 64) :
    dvec x0 x1 x2 (ix3 r p j) = expanded (fun l => x0 (ix3 r p l)) (fun l => x1 (ix2 j l)) (x2 (ix1 j)) := by
  unfold dvec expanded
  refine congrArg₂ (· + ·) (congrArg₂ (· + ·) ?_ ?_) ?_
  · exact (bcast_col_apply _ _ r p j).trans ((keep_apply _ _ r p 0).trans (sumsq_apply x0 _ _ r p))
  · refine (unflatten_apply _ _ r p j).trans ?_
    refine (LibMatmulNT.matmul_zero_apply dot_S8192x32_S64x32_S8192x64_1_1_0_0_n_n rfl rfl rfl rfl dotA_l0 dotA_r0 none
      _ _ (flat r p) j).trans ?_
    exact Finset.sum_congr rfl fun l _ => congrArg₂ (· * ·) (flatten_apply x0 _ r p l)
      (congrFun (shapeCast_self x1 _) (ix2 j l))
  · exact (bcast_row_apply _ _ r p j).trans ((row3_apply _ _ 0 0 j).trans (congrFun (shapeCast_self x2 _) (ix1 j)))

/-- The tile computation is the minimum of the scratch and the tile's minima over the windows. -/
theorem pay2_eq (x0 : FVec Ideal S16x512x32 .f32) (x1 : FVec Ideal S64x32 .bf16) (x2 : FVec Ideal S64 .f32)
    (acc : FVec Ideal S16x64 .f32) :
    k0_pay2 (F := Ideal) x0 x1 x2 acc
      = shapeCast S16x64 (minimumf acc (multiReduction .minimumf [1] S16x64 (dvec x0 x1 x2) 0x7F800000#32
          reduces_S16x512x64_S16x64 (.inl rfl) rfl)) shapeCasts_S16x64_S16x64 := rfl

theorem pay2_apply (x0 : FVec Ideal S16x512x32 .f32) (x1 : FVec Ideal S64x32 .bf16) (x2 : FVec Ideal S64 .f32)
    (acc : FVec Ideal S16x64 .f32) (r : Fin 16) (j : Fin 64) :
    k0_pay2 (F := Ideal) x0 x1 x2 acc (ix2 r j)
      = min (acc (ix2 r j)) (minOver fun p : Fin 512 =>
          expanded (fun l => x0 (ix3 r p l)) (fun l => x1 (ix2 j l)) (x2 (ix1 j))) := by
  rw [pay2_eq, shapeCast_self]
  show min (acc (ix2 r j)) _ = _
  refine congrArg (min (acc (ix2 r j))) ?_
  refine (LibMinFold.multiReduction_minimumf_single (dvec x0 x1 x2) 0x7F800000#32 reduces_S16x512x64_S16x64 _ _ (ix2 r j)).trans ?_
  rw [LibMinFold.ofBits_inf_f32]
  unfold minOver
  refine congrArg (fun f => (Finset.univ : Finset (Fin 512)).fold min ⊤ f) (funext fun p => ?_)
  have e : reduces_S16x512x64_S16x64.lift (ix2 r j) p = ix3 r p j := funext fun a => Fin.ext (by
    match a with
    | ⟨0, _⟩ => rfl
    | ⟨1, _⟩ => rfl
    | ⟨2, _⟩ => rfl)
  show dvec x0 x1 x2 (reduces_S16x512x64_S16x64.lift (ix2 r j) p) = _
  rw [e]
  exact dvec_apply x0 x1 x2 r p j

/-- The value the scratch is reset to: the top element everywhere. -/
theorem pay1_apply (i : S16x64.Idx) : k0_pay1 (F := Ideal) i = ⊤ := by
  unfold k0_pay1
  rw [shapeCast_self]
  exact LibMinFold.ofBits_inf_f32

/-! ## The finishing computation -/

theorem pay3_apply (a : FVec Ideal S16x64 .f32) (x3 : FVec Ideal S64x10 .f32) (x4 : FVec Ideal S10 .f32)
    (r : Fin 16) (o : Fin 10) :
    k0_pay3 (F := Ideal) a x3 x4 (ix2 r o)
      = Ideal.logistic ((∑ j : Fin 64, Ideal.sqrt (max (a (ix2 r j)) 0) * x3 (ix2 j o)) + x4 (ix1 o)) := by
  unfold k0_pay3
  show Ideal.logistic (_ + _) = _
  refine congrArg Ideal.logistic (congrArg₂ (· + ·) ?_ ?_)
  · refine (LibMatmul2.matmul_zero_apply dot_S16x64_S64x10_S16x10_1_0_0_1_n_n rfl rfl rfl rfl dotB_l0 dotB_r1 none
      _ _ r o).trans ?_
    refine Finset.sum_congr rfl fun j _ => ?_
    show Ideal.sqrt (max (a (ix2 r j)) (Ideal.ofBits .f32 0x00000000#32)) * x3 (ix2 j o) = _
    rw [Ideal.ofBits_zero_f32]
  · exact (broadcastTo_1b_ab_apply _ _ r o).trans (shapeCast_a_1a_apply x4 _ 0 o)

end Cert.KernelIdeal.Payload

end
-- ==== Proof.Blocks.lean ====
/-
  What the body finds in its input blocks, in terms of the whole arrays.

  Grid point t sweeps batch tile t / 4 (rows 16 (t / 4) … + 15) over window tile t % 4 (windows 512 (t % 4) … + 511).
  The window block at t is that box of x; the other four inputs are whole arrays at every point: the shapelets
  scaled by −2 and their squared norms, both computed by the host before the launch, and the classifier's weights
  and bias.  The two host-computed arrays are read at an index: −2 times a shapelet entry, and zero plus the sum of a
  shapelet's squared entries.
-/
import proofs.«163978_j66073776882276_2_alg».proof.Proof.Gen.KernelIdeal.Frame
import Idealize.ShloMosaic.Lib.Pipeline.Value
import Idealize.ShloMosaic.Lib.StableHlo.Run
import Idealize.ShloMosaic.Lib.ValueIdx
import Idealize.ShloMosaic.PureOps.Ideal.Laws

noncomputable section

namespace Cert.KernelIdeal.Blocks

open Cert.KernelIdeal Cert.KernelIdeal.Gen Idealize.ShloMosaic Idealize.ShloMosaic.TcCoe Idealize.SL.Sem
open Idealize.ShloMosaic.ValueIdx Idealize.ShloMosaic.StableHlo

variable (m : (ℓ : Loc nD τ sig) → Buf (Elt Ideal) ℓ)

/-! ## The four arguments, as functions into the extended reals -/

/-- The windows x. -/
abbrev argX (c : Dev nD) : S32x2048x32.Idx → EReal := m ((c : Thread nD τ).loc main_arg0)
/-- The shapelets. -/
abbrev argS (c : Dev nD) : S64x32.Idx → EReal := m ((c : Thread nD τ).loc main_arg1)
/-- The classifier's weights. -/
abbrev argW (c : Dev nD) : S64x10.Idx → EReal := m ((c : Thread nD τ).loc main_arg2)
/-- The classifier's bias. -/
abbrev argB (c : Dev nD) : S10.Idx → EReal := m ((c : Thread nD τ).loc main_arg3)

/-! ## Which block each window holds at a point -/

theorem idx0 : ∀ t : Fin cfg0.N, win0_0.index t 0 = t.val / 4 ∧ win0_0.index t 1 = t.val % 4 ∧ win0_0.index t 2 = 0 :=
  (by decide +kernel : ∀ t : Fin grid0.N, win0_0.index t 0 = t.val / 4 ∧ win0_0.index t 1 = t.val % 4 ∧ win0_0.index t 2 = 0)
theorem idx1 : ∀ t : Fin cfg0.N, win0_1.index t 0 = 0 ∧ win0_1.index t 1 = 0 :=
  (by decide +kernel : ∀ t : Fin grid0.N, win0_1.index t 0 = 0 ∧ win0_1.index t 1 = 0)
theorem idx2 : ∀ t : Fin cfg0.N, win0_2.index t 0 = 0 :=
  (by decide +kernel : ∀ t : Fin grid0.N, win0_2.index t 0 = 0)
theorem idx3 : ∀ t : Fin cfg0.N, win0_3.index t 0 = 0 ∧ win0_3.index t 1 = 0 :=
  (by decide +kernel : ∀ t : Fin grid0.N, win0_3.index t 0 = 0 ∧ win0_3.index t 1 = 0)
theorem idx4 : ∀ t : Fin cfg0.N, win0_4.index t 0 = 0 :=
  (by decide +kernel : ∀ t : Fin grid0.N, win0_4.index t 0 = 0)
theorem idx5 : ∀ t : Fin cfg0.N, win0_5.index t 0 = t.val / 4 ∧ win0_5.index t 1 = 0 :=
  (by decide +kernel : ∀ t : Fin grid0.N, win0_5.index t 0 = t.val / 4 ∧ win0_5.index t 1 = 0)

/-- Row r of the batch tile swept at point n, among the 32 batch rows. -/
def brow (n : ℕ) (hn : n < cfg0.N) (r : Fin 16) : Fin 32 :=
  ⟨16 * (n / 4) + r.val, by have hN : cfg0.N = 8 := N_0; have := r.isLt; omega⟩

/-- Window p of the window tile swept at point n, among the 2048 windows. -/
def wcol (n : ℕ) (p : Fin 512) : Fin 2048 :=
  ⟨512 * (n % 4) + p.val, by have := p.isLt; omega⟩

/-- The window block at point t is the box of x at batch tile t / 4 and window tile t % 4. -/
theorem iblk0_apply (c : Dev nD) (t : Fin cfg0.N) (r : Fin 16) (p : Fin 512) (l : Fin 32) :
    (iblk m c 0 t : Vec Ideal S16x512x32 .f32) (ix3 r p l)
      = argX m c (ix3 (brow t.val t.isLt r) (wcol t.val p) l) := by
  obtain ⟨h0, h1, h2⟩ := idx0 t
  unfold iblk
  rw [View.read_apply]
  show V m c main_arg0 _ = _
  rw [V_main_arg0]
  congr 1
  funext a
  apply Fin.ext
  match a with
  | ⟨0, _⟩ => show win0_0.index t 0 * 16 + 1 * r.val = 16 * (t.val / 4) + r.val; rw [h0]; omega
  | ⟨1, _⟩ => show win0_0.index t 1 * 512 + 1 * p.val = 512 * (t.val % 4) + p.val; rw [h1]; omega
  | ⟨2, _⟩ => show win0_0.index t 2 * 32 + 1 * l.val = l.val; rw [h2]; omega

/-- The scaled shapelets' block is the whole array the host computed. -/
theorem iblk1_apply (c : Dev nD) (t : Fin cfg0.N) (j : Fin 64) (l : Fin 32) :
    (iblk m c 1 t : Vec Ideal S64x32 .bf16) (ix2 j l) = V m c main_v2 (ix2 j l) := by
  obtain ⟨h0, h1⟩ := idx1 t
  unfold iblk
  rw [View.read_apply]
  show V m c main_v2 _ = _
  congr 1
  funext a
  apply Fin.ext
  match a with
  | ⟨0, _⟩ => show win0_1.index t 0 * 64 + 1 * j.val = j.val; rw [h0]; omega
  | ⟨1, _⟩ => show win0_1.index t 1 * 32 + 1 * l.val = l.val; rw [h1]; omega

/-- The squared norms' block is the whole array the host computed. -/
theorem iblk2_apply (c : Dev nD) (t : Fin cfg0.N) (j : Fin 64) :
    (iblk m c 2 t : Vec Ideal S64 .f32) (ix1 j) = V m c main_v4 (ix1 j) := by
  have h0 := idx2 t
  unfold iblk
  rw [View.read_apply]
  show V m c main_v4 _ = _
  congr 1
  funext a
  apply Fin.ext
  match a with
  | ⟨0, _⟩ => show win0_2.index t 0 * 64 + 1 * j.val = j.val; rw [h0]; omega

/-- The classifier weights' block is the whole argument. -/
theorem iblk3_apply (c : Dev nD) (t : Fin cfg0.N) (j : Fin 64) (o : Fin 10) :
    (iblk m c 3 t : Vec Ideal S64x10 .f32) (ix2 j o) = argW m c (ix2 j o) := by
  obtain ⟨h0, h1⟩ := idx3 t
  unfold iblk
  rw [View.read_apply]
  show V m c main_arg2 _ = _
  rw [V_main_arg2]
  congr 1
  funext a
  apply Fin.ext
  match a with
  | ⟨0, _⟩ => show win0_3.index t 0 * 64 + 1 * j.val = j.val; rw [h0]; omega
  | ⟨1, _⟩ => show win0_3.index t 1 * 10 + 1 * o.val = o.val; rw [h1]; omega

/-- The classifier bias' block is the whole argument. -/
theorem iblk4_apply (c : Dev nD) (t : Fin cfg0.N) (o : Fin 10) :
    (iblk m c 4 t : Vec Ideal S10 .f32) (ix1 o) = argB m c (ix1 o) := by
  have h0 := idx4 t
  unfold iblk
  rw [View.read_apply]
  show V m c main_arg3 _ = _
  rw [V_main_arg3]
  congr 1
  funext a
  apply Fin.ext
  match a with
  | ⟨0, _⟩ => show win0_4.index t 0 * 10 + 1 * o.val = o.val; rw [h0]; omega

/-! ## The two arrays the host computes before the launch -/

/-- The shapelets scaled by the literal −2 (the change of format is the identity at the ideal values). -/
theorem V_v2_apply (c : Dev nD) (j : Fin 64) (l : Fin 32) :
    V m c main_v2 (ix2 j l) = Ideal.ofBits .f32 0xC0000000#32 * argS m c (ix2 j l) := by
  have e : V m c main_v2 = truncf .bf16 (mulf (broadcastInDim S64x32 ![] bcast_S_S64x32 (constant (F := Ideal) S_ .f32 0xC0000000#32))
      (m ((c : Thread nD τ).loc main_arg1))) bitsLt_bf16_f32 := by
    dsimp only [Gen.V, Gen.hostOps0]; after_results
  rw [e]
  rfl

/-- The shapelets' squared norms: the host's sum from the literal zero. -/
theorem V_v4_apply (c : Dev nD) (j : Fin 64) :
    V m c main_v4 (ix1 j) = Ideal.ofBits .f32 0x00000000#32
      + ∑ l : Fin 32, argS m c (ix2 j l) * argS m c (ix2 j l) := by
  have e : V m c main_v4 = Host.reduceAdd (mulf (m ((c : Thread nD τ).loc main_arg1)) (m ((c : Thread nD τ).loc main_arg1)))
      (constant (F := Ideal) S_ .f32 0x00000000#32) reducesTo_S64x32_S64_d1 h_S_ := by
    dsimp only [Gen.V, Gen.hostOps0]; after_results
  rw [e]
  have hR : S64x32.Reduces [1] S64 := by decide
  dsimp only [argS]
  generalize m ((c : Thread nD τ).loc main_arg1) = y
  simp only [Host.reduceAdd, Ideal.hostReduceAdd_def]
  rw [Ideal.hostReduceAdd_single reducesTo_S64x32_S64_d1 hR]
  refine congrArg (_ + ·) (Finset.sum_congr rfl fun k _ => ?_)
  have e2 : hR.lift (ix1 j) k = ix2 j k := funext fun a => Fin.ext (by
    match a with
    | ⟨0, _⟩ => rfl
    | ⟨1, _⟩ => rfl)
  rw [e2]
  rfl

end Cert.KernelIdeal.Blocks

end
-- ==== Proof.Sweep.lean ====
/-
  The kernel's result array, as one function of the arguments.

  The eight grid points sweep two batch tiles, four window tiles each.  By induction on the point, after point n
  the scratch holds, at (r, j), the running minimum from the top element of the expanded squared distances of batch
  row 16 (n / 4) + r to shapelet j over window tiles 0 … n % 4.  At the last tile of a sweep (n % 4 = 3) that is the
  minimum over all 2048 windows, and the body writes the output block computed from it; those two blocks cover the
  result array, so the array ends at the tiled form of the computation, index by index.
-/
import proofs.«163978_j66073776882276_2_alg».proof.Proof.Gen.KernelIdeal.Value
import proofs.«163978_j66073776882276_2_alg».proof.Proof.Pieces
import proofs.«163978_j66073776882276_2_alg».proof.Proof.Payload
import proofs.«163978_j66073776882276_2_alg».proof.Proof.Blocks
import proofs.«163978_j66073776882276_2_alg».proof.Proof.Spec
import Idealize.ShloMosaic.Lib.Pipeline.Value
import Idealize.ShloMosaic.Lib.ValueIdx

noncomputable section

namespace Cert.KernelIdeal.Sweep

open Cert.KernelIdeal Cert.KernelIdeal.Gen Idealize.ShloMosaic Idealize.ShloMosaic.TcCoe Idealize.SL.Sem
open Idealize.ShloMosaic.ValueIdx Cert.Spec Cert.KernelIdeal.Blocks Cert.KernelIdeal.Payload Cert.KernelIdeal.Pieces
open Idealize.ShloMosaic.Pipeline (Dat)

variable (m : (ℓ : Loc nD τ sig) → Buf (Elt Ideal) ℓ) (ρ : Dev nD → PrngReg)

/-! ## The arguments by coordinates -/

/-- The windows. -/
def X (c : Dev nD) : Fin 32 → Fin 2048 → Fin 32 → EReal := fun b w l => argX m c (ix3 b w l)
/-- The shapelets scaled by the literal −2, as the host computes them. -/
def SN (c : Dev nD) : Fin 64 → Fin 32 → EReal := fun j l => Ideal.ofBits .f32 0xC0000000#32 * argS m c (ix2 j l)
/-- The shapelets' squared norms, as the host computes them. -/
def S2 (c : Dev nD) : Fin 64 → EReal :=
  fun j => Ideal.ofBits .f32 0x00000000#32 + ∑ l : Fin 32, argS m c (ix2 j l) * argS m c (ix2 j l)
/-- The classifier's weights. -/
def CW (c : Dev nD) : Fin 64 → Fin 10 → EReal := fun j o => argW m c (ix2 j o)
/-- The classifier's bias. -/
def CB (c : Dev nD) : Fin 10 → EReal := fun o => argB m c (ix1 o)

/-! ## The running minimum after k + 1 window tiles -/

/-- The window tile swept at point n. -/
def tileOf (n : ℕ) : Fin 4 := ⟨n % 4, Nat.mod_lt _ (by norm_num)⟩

/-- The running minimum, from the top element, over window tiles 0 … k. -/
def accUpTo (x : Fin 2048 → Fin 32 → EReal) (sn : Fin 32 → EReal) (s2 : EReal) : Fin 4 → EReal
  | ⟨0, _⟩ => min ⊤ (tileLeast x sn s2 0)
  | ⟨1, _⟩ => min (min ⊤ (tileLeast x sn s2 0)) (tileLeast x sn s2 1)
  | ⟨2, _⟩ => min (min (min ⊤ (tileLeast x sn s2 0)) (tileLeast x sn s2 1)) (tileLeast x sn s2 2)
  | ⟨_ + 3, _⟩ => accLeast x sn s2

theorem accUpTo_succ (x : Fin 2048 → Fin 32 → EReal) (sn : Fin 32 → EReal) (s2 : EReal) (k : ℕ) (hk : k + 1 < 4) :
    accUpTo x sn s2 ⟨k + 1, hk⟩ = min (accUpTo x sn s2 ⟨k, by omega⟩) (tileLeast x sn s2 ⟨k + 1, hk⟩) := by
  match k, hk with
  | 0, _ => rfl
  | 1, _ => rfl
  | 2, _ => rfl

/-! ## One tile's update of the scratch, at a point -/

/-- The body's tile computation at point t, on the blocks the pipeline staged there: the minimum of the scratch and
    the least expanded squared distance over the window tile t % 4, for batch row 16 (t / 4) + r. -/
theorem tile_at (c : Dev nD) (t : Fin cfg0.N) (acc : FVec Ideal S16x64 .f32) (r : Fin 16) (j : Fin 64) :
    k0_pay2 (F := Ideal) (iblk m c 0 t) (iblk m c 1 t) (iblk m c 2 t) acc (ix2 r j)
      = min (acc (ix2 r j)) (tileLeast (X m c (brow t.val t.isLt r)) (SN m c j) (S2 m c j) (tileOf t.val)) := by
  refine (pay2_apply (iblk m c 0 t) (iblk m c 1 t) (iblk m c 2 t) acc r j).trans ?_
  refine congrArg (min (acc (ix2 r j))) ?_
  unfold tileLeast
  refine minOver_congr fun p => ?_
  unfold expanded
  have ex : ∀ l : Fin 32, (iblk m c 0 t : Vec Ideal S16x512x32 .f32) (ix3 r p l)
      = X m c (brow t.val t.isLt r) (wIdx (tileOf t.val) p) l := fun l => iblk0_apply m c t r p l
  have es : ∀ l : Fin 32, (iblk m c 1 t : Vec Ideal S64x32 .bf16) (ix2 j l) = SN m c j l :=
    fun l => (iblk1_apply m c t j l).trans (V_v2_apply m c j l)
  have e2 : (iblk m c 2 t : Vec Ideal S64 .f32) (ix1 j) = S2 m c j := (iblk2_apply m c t j).trans (V_v4_apply m c j)
  refine congrArg₂ (· + ·) (congrArg₂ (· + ·) ?_ ?_) e2
  · exact Finset.sum_congr rfl fun l _ => congrArg₂ (· * ·) (ex l) (ex l)
  · exact Finset.sum_congr rfl fun l _ => congrArg₂ (· * ·) (ex l) (es l)

/-! ## The scratch after each point -/

/-- What the carried scratch holds after point n. -/
theorem scratch_eq (c : Dev nD) : ∀ (n : ℕ) (hn : n < cfg0.N) (r : Fin 16) (j : Fin 64),
    (outsAt0 m c n hn).2 (ix2 r j) = accUpTo (X m c (brow n hn r)) (SN m c j) (S2 m c j) (tileOf n)
  | 0, hn, r, j => by
    rw [outsAt0_A m c ⟨0, hn⟩ rfl (show ¬(0 % 4 = 3) by decide)]
    dsimp only
    rw [sout_A, tile_at m c ⟨0, hn⟩ _ r j, pay1_apply]
    rfl
  | n + 1, hn, r, j => by
    have hN : cfg0.N = 8 := N_0
    by_cases h0 : (n + 1) % 4 = 0
    · have h1 : ¬(n + 1) % 4 = 3 := by omega
      rw [outsAt0_A m c ⟨n + 1, hn⟩ h0 h1]
      dsimp only
      rw [sout_A, tile_at m c ⟨n + 1, hn⟩ _ r j, pay1_apply]
      have e : tileOf (n + 1) = ⟨0, by norm_num⟩ := Fin.ext h0
      rw [e]
      rfl
    · have e1 : tileOf (n + 1) = ⟨n % 4 + 1, by omega⟩ := Fin.ext (show (n + 1) % 4 = n % 4 + 1 by omega)
      have eb : brow (n + 1) hn r = brow n (Nat.lt_of_succ_lt hn) r :=
        Fin.ext (show 16 * ((n + 1) / 4) + r.val = 16 * (n / 4) + r.val by omega)
      have step : min ((outsAt0 m c n (Nat.lt_of_succ_lt hn)).2 (ix2 r j))
            (tileLeast (X m c (brow (n + 1) hn r)) (SN m c j) (S2 m c j) (tileOf (n + 1)))
          = accUpTo (X m c (brow (n + 1) hn r)) (SN m c j) (S2 m c j) (tileOf (n + 1)) := by
        rw [scratch_eq c n (Nat.lt_of_succ_lt hn) r j, eb, e1, accUpTo_succ]
        rfl
      by_cases h1 : (n + 1) % 4 = 3
      · rw [outsAt0_C m c ⟨n + 1, hn⟩ h0 h1]
        dsimp only
        rw [sout_C, tile_at m c ⟨n + 1, hn⟩ _ r j]
        exact step
      · rw [outsAt0_B m c ⟨n + 1, hn⟩ h0 h1]
        dsimp only
        rw [sout_B, tile_at m c ⟨n + 1, hn⟩ _ r j]
        exact step

/-! ## The result array -/

/-- THE KERNEL'S RESULT: the tiled form of the computation, over the arguments as the region finds them. -/
def result (c : Dev nD) : S32x10.Idx → EReal := fun i =>
  outK (X m c) (SN m c) (S2 m c) (CW m c) (CB m c) ⟨(i 0).val, idx2_lt0 i⟩ ⟨(i 1).val, idx2_lt1 i⟩

/-- What the write-back at the last tile of a sweep writes is that sweep's block of the result. -/
theorem flushed_eq (c : Dev nD) (t : Fin cfg0.N) (hf : (cfg0.win 5).flush t = true) :
    (dats m 0 c).flushed 5 t = ((cfg0.win 5).blk t).view.read (Elt Ideal) (result m c) := by
  have hN : cfg0.N = 8 := N_0
  have h1 : t.val % 4 = 3 := (flush0_5 t).mp hf
  have h0 : ¬t.val % 4 = 0 := by omega
  obtain ⟨i50, i51⟩ := idx5 t
  have hs : (outsAt0 m c t.val t.isLt).2
      = k0_pay2 (F := Ideal) (iblk m c 0 t) (iblk m c 1 t) (iblk m c 2 t)
          (outsAt0 m c (t.val - 1) (Nat.lt_of_le_of_lt (Nat.sub_le _ _) t.isLt)).2 := by
    rw [outsAt0_C m c t h0 h1]
    dsimp only
    rw [sout_C]
  rw [Value.flushed5_C m c t h0 h1, out_C, ← hs]
  funext y
  obtain ⟨r, o, rfl⟩ : ∃ (r : Fin 16) (o : Fin 10), y = ix2 r o := ⟨y 0, y 1, eq_ix2 y⟩
  show k0_pay3 (F := Ideal) (outsAt0 m c t.val t.isLt).2 (iblk m c 3 t) (iblk m c 4 t) (ix2 r o)
    = result m c (((cfg0.win 5).blk t).view.emb (ix2 r o))
  refine (pay3_apply (outsAt0 m c t.val t.isLt).2 (iblk m c 3 t) (iblk m c 4 t) r o).trans ?_
  have e3 : tileOf t.val = ⟨0 + 3, by norm_num⟩ := Fin.ext (by show t.val % 4 = 0 + 3; omega)
  have hb : (⟨((((cfg0.win 5).blk t).view.emb (ix2 r o)) 0).val, idx2_lt0 _⟩ : Fin 32) = brow t.val t.isLt r :=
    Fin.ext (by show win0_5.index t 0 * 16 + 1 * r.val = 16 * (t.val / 4) + r.val; rw [i50]; omega)
  have ho : (⟨((((cfg0.win 5).blk t).view.emb (ix2 r o)) 1).val, idx2_lt1 _⟩ : Fin 10) = o :=
    Fin.ext (by show win0_5.index t 1 * 10 + 1 * o.val = o.val; rw [i51]; omega)
  unfold result outK
  rw [hb, ho]
  refine congrArg Ideal.logistic (congrArg₂ (· + ·) (Finset.sum_congr rfl fun j _ => ?_) (iblk4_apply m c t o))
  refine congrArg₂ (· * ·) ?_ (iblk3_apply m c t j o)
  rw [scratch_eq m c t.val t.isLt r j, e3]
  rfl

/-- An index of the result array is in point t's block iff each coordinate is in the block's range. -/
theorem mem_blk (t : Fin cfg0.N) (i : S32x10.Idx) :
    i ∈ ((cfg0.win 5).blk t).view.set ↔ ∀ a : Fin 2, win0_5.index t a * S16x10.size a ≤ (i a).val
      ∧ (i a).val < win0_5.index t a * S16x10.size a + S16x10.size a := by
  show i ∈ ((View.whole main_v5).slice (win0_5.rect t)).set ↔ _
  rw [View.set_slice_whole, Rect.mem_set_unit]
  exact Iff.rfl

/-- Every index of the result array is written back by the last tile of its batch tile's sweep. -/
theorem cover (i : S32x10.Idx) : ∃ t : Fin cfg0.N, (cfg0.win 5).flush t = true ∧ i ∈ ((cfg0.win 5).blk t).view.set := by
  have hN : cfg0.N = 8 := N_0
  have hi0 : (i 0).val < 32 := (i 0).isLt
  have hi1 : (i 1).val < 10 := (i 1).isLt
  let t : Fin cfg0.N := ⟨4 * ((i 0).val / 16) + 3, by omega⟩
  have ht : t.val = 4 * ((i 0).val / 16) + 3 := rfl
  obtain ⟨i50, i51⟩ := idx5 t
  refine ⟨t, (flush0_5 t).mpr (by rw [ht]; omega), ?_⟩
  rw [mem_blk]
  intro a
  match a with
  | ⟨0, _⟩ =>
    show win0_5.index t 0 * 16 ≤ (i 0).val ∧ (i 0).val < win0_5.index t 0 * 16 + 16
    rw [i50, ht]; omega
  | ⟨1, _⟩ =>
    show win0_5.index t 1 * 10 ≤ (i 1).val ∧ (i 1).val < win0_5.index t 1 * 10 + 10
    rw [i51]; omega

/-- So the result array ends at the tiled form of the computation. -/
theorem final (c : Dev nD) : (dats m 0 c).arrAt 5 cfg0.N = result m c :=
  (dats m 0 c).arrAt_eq_of_cover 5 (result m c) (flushed_eq m c) cover

/-- The run, read: the result array at the tiled form, the arguments unchanged. -/
theorem run : θ_run defs (onTc (τ := τ) (main (F := Ideal))) ⟨m, fun _ => 0, ρ⟩ fun r => ∀ c : Dev nD,
      r.2.mem ((c : Thread nD τ).loc main_v5) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.Sweep

end
-- ==== Proof.lean ====
/-
  The kernel computes, for 32 batch rows of 2048 windows of length 32 and 64 shapelets, the logistic function of a
  linear classifier applied to each row's least window-to-shapelet distances.  The reference takes every distance
  directly — the root of the summed squared absolute differences — and then the least over the windows.  The kernel
  expands the squared distance as  sum x^2 + sum x (−2 s) + sum s^2  (the last two factors prepared by the host),
  keeps a running minimum of it over four tiles of 512 windows in a scratch block that starts at the top element,
  and only at the last tile clamps at zero, takes one square root and applies the classifier.

  At the ideal values both are one function of the arguments wherever the windows and the shapelets are finite:
  the expansion is an identity of real arithmetic; a squared distance is nonnegative, so the clamp is the identity
  on it; the square root is monotone and fixes the top element, so it commutes with the running minimum; and the
  minimum over the four tiles is the minimum over all windows.  The classifier and the logistic function are the
  same text on both sides: the host's  1 / (1 + exp(−v))  is the definition of the logistic function.

  The three frames are the generated ones (the reference's is its generated run with the result dropped); the ideal
  pass rewrote nothing, so the kernel's idealization is its own text.
-/
import proofs.«163978_j66073776882276_2_alg».proof.Defs
import proofs.«163978_j66073776882276_2_alg».proof.Proof.Gen.Kernel
import proofs.«163978_j66073776882276_2_alg».proof.Proof.Gen.Kernel.Skeleton
import proofs.«163978_j66073776882276_2_alg».proof.Proof.Gen.Kernel.Launch
import proofs.«163978_j66073776882276_2_alg».proof.Proof.Gen.Kernel.Points
import proofs.«163978_j66073776882276_2_alg».proof.Proof.Gen.Kernel.Frame
import proofs.«163978_j66073776882276_2_alg».proof.Proof.Gen.KernelIdeal
import proofs.«163978_j66073776882276_2_alg».proof.Proof.Gen.KernelIdeal.Skeleton
import proofs.«163978_j66073776882276_2_alg».proof.Proof.Gen.KernelIdeal.Launch
import proofs.«163978_j66073776882276_2_alg».proof.Proof.Gen.KernelIdeal.Points
import proofs.«163978_j66073776882276_2_alg».proof.Proof.Gen.KernelIdeal.Frame
import proofs.«163978_j66073776882276_2_alg».proof.Proof.Gen.KernelIdeal.Value
import proofs.«163978_j66073776882276_2_alg».proof.Proof.Gen.ReferenceIdeal
import proofs.«163978_j66073776882276_2_alg».proof.Proof.Gen.ReferenceIdeal.Run
import proofs.«163978_j66073776882276_2_alg».proof.Proof.Gen.ReferenceIdeal.Read
import proofs.«163978_j66073776882276_2_alg».proof.Proof.Gen.Pre_finite_inputs
import proofs.«163978_j66073776882276_2_alg».proof.Proof.Spec
import proofs.«163978_j66073776882276_2_alg».proof.Proof.Finite
import proofs.«163978_j66073776882276_2_alg».proof.Proof.RefValue
import proofs.«163978_j66073776882276_2_alg».proof.Proof.Sweep
import Idealize.ShloMosaic.Adequacy
import Idealize.ShloMosaic.Init

noncomputable section

namespace Cert.Proof

open Idealize.ShloMosaic Idealize.SL.Sem Idealize.ShloMosaic.ValueIdx

/-- The f32 word of −2 is the number −2. -/
theorem ofBits_neg_two_f32 : Ideal.ofBits .f32 0xC0000000#32 = ((-2 : ℝ) : EReal) := by
  simp [Ideal.ofBits, Ideal.ieee]
  rw [← EReal.coe_mul]
  norm_num

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

open Cert.KernelIdeal.Sweep Cert.KernelIdeal.Blocks in
/-- Under the precondition the kernel's result array, at (b, o), is the direct form of the computation: the tiled
    form over the host-prepared factors is the direct form once the windows and the shapelets are finite. -/
theorem result_eq (m : (ℓ : Loc Cert.KernelIdeal.nD Cert.KernelIdeal.τ Cert.KernelIdeal.sig) → Buf (Elt Ideal) ℓ)
    (hpre : Cert.Pre_KernelIdeal m) (c : Dev Cert.KernelIdeal.nD) (b : Fin 32) (o : Fin 10) :
    result m c (ix2 b o)
      = Cert.Spec.out (X m c) (fun j l => argS m c (ix2 j l)) (CW m c) (CB m c) b o := by
  obtain ⟨hx, hs⟩ := Cert.Pre_finite_inputs.Finite.entries_real _ _ _ _ (hpre c)
  show Cert.Spec.outK (X m c) (SN m c) (S2 m c) (CW m c) (CB m c) b o = _
  have eSN : SN m c = fun j l => ((-2 : ℝ) : EReal) * argS m c (ix2 j l) := by
    unfold SN; rw [ofBits_neg_two_f32]
  have eS2 : S2 m c = fun j => 0 + ∑ l : Fin 32, argS m c (ix2 j l) * argS m c (ix2 j l) := by
    unfold S2; rw [Ideal.ofBits_zero_f32]
  rw [eSN, eS2]
  exact Cert.Spec.outK_eq_out (X m c) (fun j l => argS m c (ix2 j l)) (CW m c) (CB m c)
    (fun b w l => hx (ix3 b w l)) (fun j l => hs (ix2 j l)) b o

/-- At the ideal values the kernel's result array ends at the tiled form of the computation and the reference's at
    the direct form, of arguments that agree; under the precondition these are one function. -/
theorem algebraic : Cert.algebraic_KernelIdeal_ReferenceIdeal := by
  intro m ρ m' ρ' hpre hagree
  refine ⟨fun c => Cert.KernelIdeal.Sweep.result m c, Cert.KernelIdeal.Sweep.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v19_eq]
  funext i
  obtain ⟨b, o, rfl⟩ : ∃ (b : Fin 32) (o : Fin 10), i = ix2 b o := ⟨i 0, i 1, eq_ix2 i⟩
  rw [Cert.ReferenceIdeal.RefValue.ref_eq, (hagree c).1, (hagree c).2.1, (hagree c).2.2.1, (hagree c).2.2.2]
  exact (result_eq m hpre c b o).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
